-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S256 .f32) (main_arg6 : FVec F S256x128 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256 .f32) (main_arg5 : FVec F S256 .f32) (main_arg6 : FVec F S256x128 .f32) (main_arg7 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S2000x512 : Shape := ⟨2, ![2000, 512]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩
abbrev S2000 : Shape := ⟨1, ![2000]⟩
abbrev S2000x1 : Shape := ⟨2, ![2000, 1]⟩

abbrev nBuf : Space → Nat
  | .hbm => 64
  | .vmem => 25
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x256, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .bf16⟩
  | .hbm, ⟨22, _⟩ => ⟨S800000x256, .f32⟩
  | .hbm, ⟨23, _⟩ => ⟨S_, .f32⟩
  | .hbm, ⟨24, _⟩ => ⟨S50000x256, .f32⟩
  | .hbm, ⟨25, _⟩ => ⟨S800000x1, .i32⟩
  | .hbm, ⟨26, _⟩ => ⟨S50000x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S_, .f32⟩
  | .hbm, ⟨31, _⟩ => ⟨S1x256, .f32⟩
  | .hbm, ⟨32, _⟩ => ⟨S1x256, .f32⟩
  | .hbm, ⟨33, _⟩ => ⟨S_, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S_, .f32⟩
  | .hbm, ⟨39, _⟩ => ⟨S1x256, .f32⟩
  | .hbm, ⟨40, _⟩ => ⟨S1x256, .f32⟩
  | .hbm, ⟨41, _⟩ => ⟨S_, .f32⟩
  | .hbm, ⟨42, _⟩ => ⟨S1x256, .f32⟩
  | .hbm, ⟨43, _⟩ => ⟨S1x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S50000x128, .bf16⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .bf16⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S1x128, .f32⟩
  | .hbm, ⟨63, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .bf16⟩
  | .local _ .vmem, ⟨4, _⟩ => ⟨S2000x256, .bf16⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S256x128, .f32⟩
  | .local _ .vmem, ⟨18, _⟩ => ⟨S2000x128, .bf16⟩
  | .local _ .vmem, ⟨19, _⟩ => ⟨S2000x128, .bf16⟩
  | .local _ .vmem, ⟨20, _⟩ => ⟨S2000x128, .f32⟩
  | .local _ .vmem, ⟨21, _⟩ => ⟨S2000x128, .f32⟩
  | .local _ .vmem, ⟨22, _⟩ => ⟨S1x128, .f32⟩
  | .local _ .vmem, ⟨23, _⟩ => ⟨S2000x128, .f32⟩
  | .local _ .vmem, ⟨24, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17_0 : Ref sig .tc := ⟨.hbm, 28, rfl⟩
abbrev main_v17_1 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem7_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S2000x256_S2000x256 : S2000x256.ShapeCasts S2000x256
  shapeCasts_S1x256_S1x256 : S1x256.ShapeCasts S1x256
  broadcasts_S1x256_S2000x256 : S1x256.Broadcasts S2000x256
  reduces_S2000x256_S256 : S2000x256.Reduces [0] S256
  bcast_S_S1x256 : S_.BroadcastsInDim S1x256 (![] : Fin 0 → Fin S1x256.rank)
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .bf16 = 32 ∨ (Rect.block (s := S50000x256) S2000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x128.size a ≤ S256x128.size a
  hwx2_6 : ∀ i : grid2.Coords, EltTy.bits .f32 = 32 ∨ (Rect.block (s := S256x128) S256x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S50000x128.size a
  hwx2_7 : ∀ i : grid2.Coords, EltTy.bits .bf16 = 32 ∨ (Rect.block (s := S50000x128) S2000x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17_0) S1x256.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17_1) S1x256.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v15) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg6) S256x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v31) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v42) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 89
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x256, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x256, .f32⟩
  | .hbm, ⟨22, _⟩ => ⟨S_, .f32⟩
  | .hbm, ⟨23, _⟩ => ⟨S50000x256, .f32⟩
  | .hbm, ⟨24, _⟩ => ⟨S800000x1, .i32⟩
  | .hbm, ⟨25, _⟩ => ⟨S50000x256, .f32⟩
  | .hbm, ⟨26, _⟩ => ⟨S1x256, .f32⟩
  | .hbm, ⟨27, _⟩ => ⟨S50000x256, .f32⟩
  | .hbm, ⟨28, _⟩ => ⟨S50000x256, .f32⟩
  | .hbm, ⟨29, _⟩ => ⟨S_, .f32⟩
  | .hbm, ⟨30, _⟩ => ⟨S256, .f32⟩
  | .hbm, ⟨31, _⟩ => ⟨S_, .f32⟩
  | .hbm, ⟨32, _⟩ => ⟨S256, .f32⟩
  | .hbm, ⟨33, _⟩ => ⟨S256, .f32⟩
  | .hbm, ⟨34, _⟩ => ⟨S1x256, .f32⟩
  | .hbm, ⟨35, _⟩ => ⟨S50000x256, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S256, .f32⟩
  | .hbm, ⟨48, _⟩ => ⟨S256, .f32⟩
  | .hbm, ⟨49, _⟩ => ⟨S256, .f32⟩
  | .hbm, ⟨50, _⟩ => ⟨S1x256, .f32⟩
  | .hbm, ⟨51, _⟩ => ⟨S50000x256, .f32⟩
  | .hbm, ⟨52, _⟩ => ⟨S50000x256, .f32⟩
  | .hbm, ⟨53, _⟩ => ⟨S1x256, .f32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S50000x256, .f32⟩
  | .hbm, ⟨61, _⟩ => ⟨S50000x256, .f32⟩
  | .hbm, ⟨62, _⟩ => ⟨S50000x128, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x128, .f32⟩
  | .hbm, ⟨72, _⟩ => ⟨S_, .f32⟩
  | .hbm, ⟨73, _⟩ => ⟨S50000x128, .f32⟩
  | .hbm, ⟨74, _⟩ => ⟨S800000x1, .i32⟩
  | .hbm, ⟨75, _⟩ => ⟨S50000x128, .f32⟩
  | .hbm, ⟨76, _⟩ => ⟨S1x128, .f32⟩
  | .hbm, ⟨77, _⟩ => ⟨S50000x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000, .f32⟩
  | .hbm, ⟨82, _⟩ => ⟨S50000x1, .f32⟩
  | .hbm, ⟨83, _⟩ => ⟨S50000x1, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x128, .f32⟩
  | .hbm, ⟨88, _⟩ => ⟨S50000x128, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_cst : Ref sig .tc := ⟨.hbm, 59, rfl⟩
abbrev main_call0_v0 : Ref sig .tc := ⟨.hbm, 60, rfl⟩
abbrev main_v43 : Ref sig .tc := ⟨.hbm, 61, rfl⟩
abbrev main_v44 : Ref sig .tc := ⟨.hbm, 62, rfl⟩
abbrev main_c_6 : Ref sig .tc := ⟨.hbm, 63, rfl⟩
abbrev main_v45 : Ref sig .tc := ⟨.hbm, 64, rfl⟩
abbrev main_v46 : Ref sig .tc := ⟨.hbm, 65, rfl⟩
abbrev main_c_7 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_8 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call1_v0 : Ref sig .tc := ⟨.hbm, 79, rfl⟩
abbrev main_call1_cst : Ref sig .tc := ⟨.hbm, 80, rfl⟩
abbrev main_call1_v1 : Ref sig .tc := ⟨.hbm, 81, rfl⟩
abbrev main_call1_v2 : Ref sig .tc := ⟨.hbm, 82, rfl⟩
abbrev main_v58 : Ref sig .tc := ⟨.hbm, 83, rfl⟩
abbrev main_cst_9 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.KernelRun.lean ====
/-
  The idealized kernel's run, with its result named.

  @main is four pipelined regions among stretches of host operations. The generated frame threads the
  TensorCore's buffer contents through the eight segments as a fold `W0 … W8` (a stretch applies its
  operations; a region replaces its arrays by what its write-backs leave) and ends with every unscoped
  buffer at `W8`. Here the same launch is read once more, keeping the result buffer beside the arguments:
  every weakly fair execution terminates with the result array at `W8`'s contents for it.
-/
import proofs.«101625_j39247411151462_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v44) = W8 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v44 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Run

end
-- ==== Proof.Region0.lean ====
/-
  Region 0: the first linear layer, row block by row block.

  The grid has 25 points; point t loads rows 2000·t … 2000·t + 1999 of the feature matrix and the whole
  weight matrix, multiplies them (the changes of float format are the identity on extended reals, the
  accumulator is zero) and writes the product back to the same rows of the result. The 25 row blocks tile
  the 50000 rows, so the result array ends as the whole matrix product X·W, entry (n, j) = Σ_k X(n,k)·W(k,j).
-/
import proofs.«101625_j39247411151462_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The zero offset of a whole-buffer access. -/
theorem off2_zero : (![0, 0] : Fin 2 → Nat) = fun _ => 0 := funext fun a => by fin_cases a <;> rfl

/-- The matrix product of a [50000, 512] array and a [512, 256] array. -/
def matProd1 (X : S50000x512.Idx → EReal) (W : S512x256.Idx → EReal) : S50000x256.Idx → EReal :=
  fun i => ∑ k : Fin 512, X (ix2 (i 0) k) * W (ix2 k (i 1))

theorem dot0_lhs0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem dot0_lhs1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem dot0_rhs0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem dot0_rhs1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The block product at (r, j): the sum over k of the row block's (r, k) times the weights' (k, j). -/
theorem pay0_apply (x0 : FVec Ideal S2000x512 .f32) (x1 : FVec Ideal S512x256 .f32) (r : Fin 2000) (j : Fin 256) :
    k0_pay1 (F := Ideal) x0 x1 (ix2 r j) = ∑ k : Fin 512, x0 (ix2 r k) * x1 (ix2 k j) := by
  show FloatOps.matmul dot_S2000x512_S512x256_S2000x256_1_0_0_1_n_n none (truncf .bf16 x0 bitsLt_bf16_f32) (truncf .bf16 x1 bitsLt_bf16_f32)
    (constant S2000x256 .f32 0x00000000#32) (ix2 r j) = _
  refine (Ideal.matmul_constant_zero_apply dot_S2000x512_S512x256_S2000x256_1_0_0_1_n_n none _ _ (ix2 r j)).trans ?_
  rw [← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx (ix2 r j) ((ValueIdx.contrEquiv1 dot_S2000x512_S512x256_S2000x256_1_0_0_1_n_n 512 rfl rfl).symm k) = ix2 r k := funext fun a => Fin.ext (by
    match a with
    | ⟨0, _⟩ => exact dot0_lhs0 _ _
    | ⟨1, _⟩ => exact (dot0_lhs1 _ _).trans hk)
  have er : dot_S2000x512_S512x256_S2000x256_1_0_0_1_n_n.rhsIdx (ix2 r j) ((ValueIdx.contrEquiv1 dot_S2000x512_S512x256_S2000x256_1_0_0_1_n_n 512 rfl rfl).symm k) = ix2 k j := funext fun a => Fin.ext (by
    match a with
    | ⟨0, _⟩ => exact (dot0_rhs0 _ _).trans hk
    | ⟨1, _⟩ => exact dot0_rhs1 _ _)
  show x0 (dot_S2000x512_S512x256_S2000x256_1_0_0_1_n_n.lhsIdx (ix2 r j) _) * x1 (dot_S2000x512_S512x256_S2000x256_1_0_0_1_n_n.rhsIdx (ix2 r j) _) = _
  rw [el, er]

/-- The printed index maps over the grid: the row blocks move with the point, everything else stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the matrix product of the arrays the region finds. -/
theorem flushed0_eq (c : Dev nD) (t : Fin cfg0.N) :
    (dat0 V c).flushed 2 t = ((cfg0.win 2).blk t).view.read (Elt Ideal) (matProd1 (V c main_arg0) (V c main_arg2)) := by
  show (cfg0.win 2).cut (grid0.coords t) ((dat0 V c).after 2 t) = _
  rw [after0_2]
  unfold out0_2
  rw [View.canon_unit_zero off2_zero]
  simp only [View.ld_unit_zero (S := S2000x512) off2_zero, View.ld_unit_zero (S := S512x256) off2_zero]
  obtain ⟨e0, e1, e2, e3, e4, e5⟩ := idx_facts0 t
  funext y
  obtain ⟨r, j, rfl⟩ : ∃ (r : Fin 2000) (j : Fin 256), y = ix2 r j := ⟨y 0, y 1, eq_ix2 y⟩
  show k0_pay1 (F := Ideal) (iblk0 V c 0 t) (iblk0 V c 1 t) (ix2 r j) = matProd1 (V c main_arg0) (V c main_arg2) (((cfg0.win 2).blk t).view.emb (ix2 r j))
  refine (pay0_apply (iblk0 V c 0 t) (iblk0 V c 1 t) r j).trans ?_
  unfold matProd1
  refine Finset.sum_congr rfl fun k _ => ?_
  refine congrArg₂ (· * ·) ?_ ?_
  · show V c main_arg0 (((cfg0.win 0).blk t).view.emb (ix2 r k)) = _
    refine congrArg _ ?_
    funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 512 + 1 * k.val = k.val; omega
  · show V c main_arg2 (((cfg0.win 1).blk t).view.emb (ix2 k j)) = _
    refine congrArg _ ?_
    funext a; apply Fin.ext
    match a with
    | ⟨0, _⟩ => show win0_1.index t (0 : Fin 2) * 512 + 1 * k.val = k.val; omega
    | ⟨1, _⟩ => show win0_1.index t (1 : Fin 2) * 256 + 1 * j.val = win0_2.index t (1 : Fin 2) * 256 + 1 * j.val; omega

/-- An index of the result array is in point t's block iff each coordinate is in the block's range. -/
theorem mem_blk0 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v4).slice (win0_2.rect t)).set ↔ _
  rw [View.set_slice_whole, Rect.mem_set_unit]
  exact Iff.rfl

/-- Every row is in the block of the point its number divided by 2000 names. -/
theorem cover0 (i : S50000x256.Idx) : ∃ t : Fin cfg0.N, (cfg0.win 2).flush t = true ∧ i ∈ ((cfg0.win 2).blk t).view.set := by
  have h0 : (i 0).val < 50000 := (i 0).isLt
  have h1 : (i 1).val < 256 := (i 1).isLt
  have hN : cfg0.N = 25 := N_0
  let t : Fin cfg0.N := ⟨(i 0).val / 2000, by rw [hN]; omega⟩
  obtain ⟨e0, e1, e2, e3, e4, e5⟩ := idx_facts0 t
  have ht : t.val = (i 0).val / 2000 := rfl
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The result array after the region: the matrix product of the two arrays the region finds. -/
theorem region0_value (c : Dev nD) : (dat0 V c).arrAt 2 cfg0.N = matProd1 (V c main_arg0) (V c main_arg2) :=
  (dat0 V c).arrAt_eq_of_cover 2 (matProd1 (V c main_arg0) (V c main_arg2)) (fun t _ => flushed0_eq V c t) cover0

end Cert.KernelIdeal.Regions

end
-- ==== Proof.LibSums.lean ====
/-
  Finite sums over index sets, re-indexed: general lemmas over any additive commutative monoid, with no program in them.

    sum_idx1, sum_idx3   a sum over the indices of a rank-1 / rank-3 shape is the (iterated) sum over the coordinates
                         (the rank-2 case is the library's `ValueIdx.sum_idx2`);
    sum_fin_mul          a sum over `a * b` consecutive naturals is the double sum over quotient i < a and remainder
                         j < b, at position i * b + j — the step that splits a flat index into (row, column), applied
                         repeatedly for a tiling of any depth;
    sum_fin_cast         the same sum under another spelling of its length (so a literal extent can be written as the
                         product it is, by `norm_num`, without evaluating anything of that size);
    sum_reorder          four nested sums a, b, c, d taken in the order d, c, a, b.

  None of them needs the summands finite: only commutativity and associativity of addition are used.
-/
import Idealize.ShloMosaic.PureOps.Ideal
import Idealize.ShloMosaic.Lib.ValueIdx

noncomputable section

open scoped BigOperators

namespace Idealize.ShloMosaic.ValueSums

open Idealize.ShloMosaic Idealize.ShloMosaic.ValueIdx

/-! ## Sums over index sets of rank 1 and 3 as sums over coordinates -/

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Regrouping a sum over a range that is a product -/

/-- A sum over `a * b` consecutive naturals is the double sum over quotient and remainder. -/
theorem sum_fin_mul {M : Type*} [AddCommMonoid M] (a b : ℕ) (f : ℕ → M) :
    ∑ k : Fin (a * b), f k.val = ∑ i : Fin a, ∑ j : Fin b, f (i.val * b + j.val) := by
  rw [← (finProdFinEquiv (m := a) (n := b)).sum_comp, Fintype.sum_prod_type]
  refine Finset.sum_congr rfl fun i _ => Finset.sum_congr rfl fun j _ => ?_
  refine congrArg f ?_
  rw [finProdFinEquiv_apply_val]
  ring

/-- The same range under another spelling of its length. -/
theorem sum_fin_cast {M : Type*} [AddCommMonoid M] {n n' : ℕ} (h : n = n') (f : ℕ → M) :
    ∑ k : Fin n, f k.val = ∑ k : Fin n', f k.val := by
  subst h; rfl

/-- Four nested sums in another order. -/
theorem sum_reorder {M : Type*} [AddCommMonoid M] {A B C D : Type*} [Fintype A] [Fintype B] [Fintype C] [Fintype D]
    (F : A → B → C → D → M) :
    ∑ a, ∑ b, ∑ c, ∑ d, F a b c d = ∑ d, ∑ c, ∑ a, ∑ b, F a b c d := by
  calc ∑ a, ∑ b, ∑ c, ∑ d, F a b c d
      = ∑ a, ∑ c, ∑ b, ∑ d, F a b c d := Finset.sum_congr rfl fun a _ => Finset.sum_comm
    _ = ∑ c, ∑ a, ∑ b, ∑ d, F a b c d := Finset.sum_comm
    _ = ∑ c, ∑ a, ∑ d, ∑ b, F a b c d :=
        Finset.sum_congr rfl fun c _ => Finset.sum_congr rfl fun a _ => Finset.sum_comm
    _ = ∑ c, ∑ d, ∑ a, ∑ b, F a b c d := Finset.sum_congr rfl fun c _ => Finset.sum_comm
    _ = ∑ d, ∑ c, ∑ a, ∑ b, F a b c d := Finset.sum_comm

end Idealize.ShloMosaic.ValueSums

end
-- ==== Proof.Region1.lean ====
/-
  Region 1: the column sums and the column sums of squares of the biased array, accumulated over the grid.

  Point t loads rows 2000·t … 2000·t + 1999 of the aggregated array and the bias row, adds the bias, and adds the
  block's column sums (and the column sums of its squares) into two [1, 256] rows that stay in place from
  point to point; the first point clears them first, and they are written back once, after the last point.
  So the rows end as the sum over the 25 blocks of the blocks' column sums — which, regrouping a sum over
  25·2000 consecutive rows, are the column sums over all 50000 rows.
-/
import proofs.«101625_j39247411151462_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«101625_j39247411151462_2_alg».proof.Proof.LibSums

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem Idealize.ShloMosaic.Tactic
open Idealize.ShloMosaic.Pipeline (Dat Cfg Window)

theorem off2_zero1 : (![0, 0] : Fin 2 → Nat) = fun _ => 0 := funext fun a => by fin_cases a <;> rfl

/-! ## What each case of the body leaves, as the skeleton's payloads -/

section Pieces
variable {F : FTy → Type} [FloatOps F]

/-- First point, the sums' row: the accumulation over the freshly stored zero row. -/
theorem outA2 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : cond1_0 i) (x0 : Vec F S2000x256 .f32) (x1 : Vec F S1x256 .f32) :
    out1_A_2 (F := F) c i arg1 harg1 arg2 harg2 arg3 harg3 arg4 harg4 hc0 x0 x1 = k1_pay4 x0 x1 k1_pay1 := by
  unfold out1_A_2
  rw [View.read_writes_eq_canon _ _ _ (cover1_A_2 c i arg1 harg1 arg2 harg2 arg3 harg3 arg4 harg4 hc0 x0 x1)]
  unfold kernelRun1_A
  dsimp only
  sl_unfold_words
  rw [View.canon_cons_unit_zero (S := S1x256) off2_zero1, View.readCov_unit_zero (S := S1x256) _ off2_zero1]
  simp only [View.readAt_eq_ld, harg1.read_unread, harg2.read_unread, View.ld_unit_zero (S := S2000x256) off2_zero1, View.ld_unit_zero (S := S1x256) off2_zero1]

/-- First point, the squares' row. -/
theorem outA3 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : cond1_0 i) (x0 : Vec F S2000x256 .f32) (x1 : Vec F S1x256 .f32) :
    out1_A_3 (F := F) c i arg1 harg1 arg2 harg2 arg3 harg3 arg4 harg4 hc0 x0 x1 = k1_pay5 x0 x1 k1_pay2 := by
  unfold out1_A_3
  rw [View.read_writes_eq_canon _ _ _ (cover1_A_3 c i arg1 harg1 arg2 harg2 arg3 harg3 arg4 harg4 hc0 x0 x1)]
  unfold kernelRun1_A
  dsimp only
  sl_unfold_words
  rw [View.canon_cons_unit_zero (S := S1x256) off2_zero1, View.readCov_unit_zero (S := S1x256) _ off2_zero1]
  simp only [View.readAt_eq_ld, harg1.read_unread, harg2.read_unread, View.ld_unit_zero (S := S2000x256) off2_zero1, View.ld_unit_zero (S := S1x256) off2_zero1]

/-- A later point, the sums' row: the accumulation over what the point before left. -/
theorem outB2 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : ¬cond1_0 i) (x0 : Vec F S2000x256 .f32) (x1 : Vec F S1x256 .f32) (xo2 xo3 : Vec F S1x256 .f32) :
    out1_B_2 (F := F) c i arg1 harg1 arg2 harg2 arg3 harg3 arg4 harg4 hc0 x0 x1 xo2 xo3 = k1_pay4 x0 x1 xo2 := by
  unfold out1_B_2
  rw [View.read_writes_eq_canon _ _ _ (cover1_B_2 c i arg1 harg1 arg2 harg2 arg3 harg3 arg4 harg4 hc0 x0 x1 xo2 xo3)]
  unfold kernelRun1_B
  dsimp only
  rw [View.canon_unit_zero off2_zero1]
  simp only [View.readAt_eq_ld, harg1.read_unread, harg2.read_unread, harg3.read_unread, View.ld_unit_zero (S := S2000x256) off2_zero1, View.ld_unit_zero (S := S1x256) off2_zero1]

/-- A later point, the squares' row. -/
theorem outB3 (c : Dev nD) (i : grid1.Coords) (arg1 : Memref sig .tc .vmem S2000x256 .f32) (harg1 : arg1.IsWhole) (arg2 : Memref sig .tc .vmem S1x256 .f32) (harg2 : arg2.IsWhole) (arg3 : Memref sig .tc .vmem S1x256 .f32) (harg3 : arg3.IsWhole) (arg4 : Memref sig .tc .vmem S1x256 .f32) (harg4 : arg4.IsWhole) (hc0 : ¬cond1_0 i) (x0 : Vec F S2000x256 .f32) (x1 : Vec F S1x256 .f32) (xo2 xo3 : Vec F S1x256 .f32) :
    out1_B_3 (F := F) c i arg1 harg1 arg2 harg2 arg3 harg3 arg4 harg4 hc0 x0 x1 xo2 xo3 = k1_pay5 x0 x1 xo3 := by
  unfold out1_B_3
  rw [View.read_writes_eq_canon _ _ _ (cover1_B_3 c i arg1 harg1 arg2 harg2 arg3 harg3 arg4 harg4 hc0 x0 x1 xo2 xo3)]
  unfold kernelRun1_B
  dsimp only
  rw [View.canon_unit_zero off2_zero1]
  simp only [View.readAt_eq_ld, harg1.read_unread, harg2.read_unread, harg4.read_unread, View.ld_unit_zero (S := S2000x256) off2_zero1, View.ld_unit_zero (S := S1x256) off2_zero1]

end Pieces

/-! ## The payloads at an index, on extended reals -/

/-- A sublane sum of a [2000, 256] block at column j is the sum over the block's rows. -/
theorem colSum1 (src : FVec Ideal S2000x256 .f32) (j : Fin 256) :
    multiReduction .add [0] S256 src 0x00000000#32 reduces_S2000x256_S256 (.inl rfl) rfl (ix1 j) = ∑ r : Fin 2000, src (ix2 r j) := by
  refine (Ideal.multiReduction_add_single src 0x00000000#32 reduces_S2000x256_S256 (.inl rfl) rfl (ix1 j)).trans ?_
  show ∑ r : Fin 2000, src (reduces_S2000x256_S256.lift (ix1 j) r) = _
  refine Finset.sum_congr rfl fun r _ => congrArg src ?_
  funext a; apply Fin.ext
  match a with
  | ⟨0, _⟩ => rfl
  | ⟨1, _⟩ => rfl

/-- The biased block at (r, j). -/
theorem pay3_1_apply (x0 : FVec Ideal S2000x256 .f32) (x1 : FVec Ideal S1x256 .f32) (r : Fin 2000) (j : Fin 256) :
    k1_pay3 (F := Ideal) x0 x1 (ix2 r j) = x0 (ix2 r j) + x1 (ix2 (0 : Fin 1) j) := by
  unfold k1_pay3
  rw [addf_apply, shapeCast_self, shapeCast_self]
  exact congrArg (x0 (ix2 r j) + ·) (broadcastTo_1b_ab_apply x1 broadcasts_S1x256_S2000x256 r j)

/-- The sums' row after a point: what it held plus the block's column sums. -/
theorem pay4_apply (x0 : FVec Ideal S2000x256 .f32) (x1 acc : FVec Ideal S1x256 .f32) (j : Fin 256) :
    k1_pay4 (F := Ideal) x0 x1 acc (ix2 (0 : Fin 1) j) = acc (ix2 (0 : Fin 1) j) + ∑ r : Fin 2000, (x0 (ix2 r j) + x1 (ix2 (0 : Fin 1) j)) := by
  unfold k1_pay4
  dsimp only
  rw [addf_apply, shapeCast_self]
  refine congrArg (acc (ix2 (0 : Fin 1) j) + ·) ?_
  rw [shapeCast_a_1a_apply _ shapeCasts_S256_S1x256 (0 : Fin 1) j, colSum1]
  exact Finset.sum_congr rfl fun r _ => pay3_1_apply x0 x1 r j

/-- The squares' row after a point: what it held plus the column sums of the block's squares. -/
theorem pay5_apply (x0 : FVec Ideal S2000x256 .f32) (x1 acc : FVec Ideal S1x256 .f32) (j : Fin 256) :
    k1_pay5 (F := Ideal) x0 x1 acc (ix2 (0 : Fin 1) j)
      = acc (ix2 (0 : Fin 1) j) + ∑ r : Fin 2000, (x0 (ix2 r j) + x1 (ix2 (0 : Fin 1) j)) * (x0 (ix2 r j) + x1 (ix2 (0 : Fin 1) j)) := by
  unfold k1_pay5
  dsimp only
  rw [addf_apply, shapeCast_self]
  refine congrArg (acc (ix2 (0 : Fin 1) j) + ·) ?_
  rw [shapeCast_a_1a_apply _ shapeCasts_S256_S1x256 (0 : Fin 1) j, colSum1]
  refine Finset.sum_congr rfl fun r _ => ?_
  rw [mulf_apply, pay3_1_apply]

/-- The cleared rows hold zero. -/
theorem pay1_apply (y : S1x256.Idx) : k1_pay1 (F := Ideal) y = 0 := Ideal.ofBits_zero_f32
theorem pay2_1_apply (y : S1x256.Idx) : k1_pay2 (F := Ideal) y = 0 := Ideal.ofBits_zero_f32

/-! ## The running sums -/

/-- The printed index maps over the grid. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

variable (V : (c : Dev nD) → (b : Ref sig .tc) → Buf (Elt Ideal) ((c : Thread nD τ).loc b))

/-- Row n of column j of the biased array, by the row's number (zero past the last row). -/
def biasedRow (A : S50000x256.Idx → EReal) (b : S1x256.Idx → EReal) (j : Fin 256) (n : ℕ) : EReal :=
  if h : n < 50000 then A (ix2 ⟨n, h⟩ j) + b (ix2 (0 : Fin 1) j) else 0

/-- Entry (r, j) of point t's row block is row 2000·t + r of the array the region finds. -/
theorem blkA_apply (c : Dev nD) (t : Fin cfg1.N) (r : Fin 2000) (j : Fin 256) (hlt : t.val * 2000 + r.val < 50000) :
    iblk1 V c 0 t (ix2 r j) = (V c main_v15 : S50000x256.Idx → EReal) (ix2 ⟨t.val * 2000 + r.val, hlt⟩ j) := by
  obtain ⟨e0, e1, e2, e3, e4, e5, e6, e7⟩ := idx_facts1 t
  show V c main_v15 (((cfg1.win 0).blk t).view.emb (ix2 r j)) = _
  refine congrArg _ ?_
  funext a; apply Fin.ext
  match a with
  | ⟨0, _⟩ => show win1_0.index t (0 : Fin 2) * 2000 + 1 * r.val = t.val * 2000 + r.val; omega
  | ⟨1, _⟩ => show win1_0.index t (1 : Fin 2) * 256 + 1 * j.val = j.val; omega

/-- The bias row's block is the bias row. -/
theorem blkB_apply (c : Dev nD) (t : Fin cfg1.N) (j : Fin 256) :
    iblk1 V c 1 t (ix2 (0 : Fin 1) j) = (V c main_v16 : S1x256.Idx → EReal) (ix2 (0 : Fin 1) j) := by
  obtain ⟨e0, e1, e2, e3, e4, e5, e6, e7⟩ := idx_facts1 t
  show V c main_v16 (((cfg1.win 1).blk t).view.emb (ix2 (0 : Fin 1) j)) = _
  refine congrArg _ ?_
  funext a; apply Fin.ext
  match a with
  | ⟨0, _⟩ => show win1_1.index t (0 : Fin 2) * 1 + 1 * 0 = 0; omega
  | ⟨1, _⟩ => show win1_1.index t (1 : Fin 2) * 256 + 1 * j.val = j.val; omega

/-- The biased entry (r, j) of point t's block is the biased row 2000·t + r. -/
theorem blk0_apply (c : Dev nD) (t : Fin cfg1.N) (r : Fin 2000) (j : Fin 256) (x y : EReal)
    (hx : x = iblk1 V c 0 t (ix2 r j)) (hy : y = iblk1 V c 1 t (ix2 (0 : Fin 1) j)) :
    x + y = biasedRow (V c main_v15) (V c main_v16) j (t.val * 2000 + r.val) := by
  have hN : t.val < 25 := lt_of_lt_of_eq t.isLt (show cfg1.N = 25 from N_1)
  have hlt : t.val * 2000 + r.val < 50000 := by have := r.isLt; omega
  unfold biasedRow
  rw [dif_pos hlt, hx, hy]
  exact congrArg₂ (· + ·) (blkA_apply V c t r j hlt) (blkB_apply V c t j)

set_option maxHeartbeats 1000000 in
/-- After point n the sums' row holds, at column j, the sum over the first n + 1 blocks of their column sums. -/
theorem sums_after (c : Dev nD) (j : Fin 256) : ∀ (n : ℕ) (hn : n < cfg1.N),
    (outsAt1 V c n hn).1 (ix2 (0 : Fin 1) j)
      = ∑ s ∈ Finset.range (n + 1), ∑ r : Fin 2000, biasedRow (V c main_v15) (V c main_v16) j (s * 2000 + r.val)
  | 0, hn => by
    have h : (outsAt1 V c 0 hn).1 = k1_pay4 (F := Ideal) (iblk1 V c 0 ⟨0, hn⟩) (iblk1 V c 1 ⟨0, hn⟩) (k1_pay1 (F := Ideal)) :=
      outA2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩)
    refine (congrFun h (ix2 (0 : Fin 1) j)).trans ?_
    refine (pay4_apply (iblk1 V c 0 ⟨0, hn⟩) (iblk1 V c 1 ⟨0, hn⟩) (k1_pay1 (F := Ideal)) j).trans ?_
    rw [pay1_apply, zero_add, Finset.sum_range_one]
    refine Finset.sum_congr rfl fun r _ => ?_
    have hb := blk0_apply V c ⟨0, hn⟩ r j _ _ rfl rfl
    exact hb
  | n + 1, hn => by
    have hN : n + 1 < 25 := lt_of_lt_of_eq hn (show cfg1.N = 25 from N_1)
    have h0 : ¬ (n + 1) % 25 = 0 := by omega
    have hstep : outsAt1 V c (n + 1) hn
        = (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩)
            (outsAt1 V c n (Nat.lt_of_succ_lt hn)).1 (outsAt1 V c n (Nat.lt_of_succ_lt hn)).2,
           out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩)
            (outsAt1 V c n (Nat.lt_of_succ_lt hn)).1 (outsAt1 V c n (Nat.lt_of_succ_lt hn)).2) :=
      (dif_neg h0).trans rfl
    have h : (outsAt1 V c (n + 1) hn).1 = k1_pay4 (F := Ideal) (iblk1 V c 0 ⟨n + 1, hn⟩) (iblk1 V c 1 ⟨n + 1, hn⟩) (outsAt1 V c n (Nat.lt_of_succ_lt hn)).1 :=
      (congrArg Prod.fst hstep).trans
        (outB2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩)
          (outsAt1 V c n (Nat.lt_of_succ_lt hn)).1 (outsAt1 V c n (Nat.lt_of_succ_lt hn)).2)
    refine (congrFun h (ix2 (0 : Fin 1) j)).trans ?_
    refine (pay4_apply (iblk1 V c 0 ⟨n + 1, hn⟩) (iblk1 V c 1 ⟨n + 1, hn⟩) (outsAt1 V c n (Nat.lt_of_succ_lt hn)).1 j).trans ?_
    rw [Finset.sum_range_succ _ (n + 1)]
    refine congrArg₂ (· + ·) (sums_after c j n (Nat.lt_of_succ_lt hn)) ?_
    refine Finset.sum_congr rfl fun r _ => ?_
    have hb := blk0_apply V c ⟨n + 1, hn⟩ r j _ _ rfl rfl
    exact hb

set_option maxHeartbeats 1000000 in
/-- The same for the squares' row. -/
theorem squares_after (c : Dev nD) (j : Fin 256) : ∀ (n : ℕ) (hn : n < cfg1.N),
    (outsAt1 V c n hn).2 (ix2 (0 : Fin 1) j)
      = ∑ s ∈ Finset.range (n + 1), ∑ r : Fin 2000, biasedRow (V c main_v15) (V c main_v16) j (s * 2000 + r.val) * biasedRow (V c main_v15) (V c main_v16) j (s * 2000 + r.val)
  | 0, hn => by
    have h : (outsAt1 V c 0 hn).2 = k1_pay5 (F := Ideal) (iblk1 V c 0 ⟨0, hn⟩) (iblk1 V c 1 ⟨0, hn⟩) (k1_pay2 (F := Ideal)) :=
      outA3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) ((hcond1_0 ⟨0, hn⟩).mpr (Nat.zero_mod _)) (iblk1 V c 0 ⟨0, hn⟩) (iblk1 V c 1 ⟨0, hn⟩)
    refine (congrFun h (ix2 (0 : Fin 1) j)).trans ?_
    refine (pay5_apply (iblk1 V c 0 ⟨0, hn⟩) (iblk1 V c 1 ⟨0, hn⟩) (k1_pay2 (F := Ideal)) j).trans ?_
    rw [pay2_1_apply, zero_add, Finset.sum_range_one]
    refine Finset.sum_congr rfl fun r _ => ?_
    have hb := blk0_apply V c ⟨0, hn⟩ r j _ _ rfl rfl
    rw [hb]
  | n + 1, hn => by
    have hN : n + 1 < 25 := lt_of_lt_of_eq hn (show cfg1.N = 25 from N_1)
    have h0 : ¬ (n + 1) % 25 = 0 := by omega
    have hstep : outsAt1 V c (n + 1) hn
        = (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩)
            (outsAt1 V c n (Nat.lt_of_succ_lt hn)).1 (outsAt1 V c n (Nat.lt_of_succ_lt hn)).2,
           out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩)
            (outsAt1 V c n (Nat.lt_of_succ_lt hn)).1 (outsAt1 V c n (Nat.lt_of_succ_lt hn)).2) :=
      (dif_neg h0).trans rfl
    have h : (outsAt1 V c (n + 1) hn).2 = k1_pay5 (F := Ideal) (iblk1 V c 0 ⟨n + 1, hn⟩) (iblk1 V c 1 ⟨n + 1, hn⟩) (outsAt1 V c n (Nat.lt_of_succ_lt hn)).2 :=
      (congrArg Prod.snd hstep).trans
        (outB3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (fun h => h0 ((hcond1_0 ⟨n + 1, hn⟩).mp h)) (iblk1 V c 0 ⟨n + 1, hn⟩) (iblk1 V c 1 ⟨n + 1, hn⟩)
          (outsAt1 V c n (Nat.lt_of_succ_lt hn)).1 (outsAt1 V c n (Nat.lt_of_succ_lt hn)).2)
    refine (congrFun h (ix2 (0 : Fin 1) j)).trans ?_
    refine (pay5_apply (iblk1 V c 0 ⟨n + 1, hn⟩) (iblk1 V c 1 ⟨n + 1, hn⟩) (outsAt1 V c n (Nat.lt_of_succ_lt hn)).2 j).trans ?_
    rw [Finset.sum_range_succ _ (n + 1)]
    refine congrArg₂ (· + ·) (squares_after c j n (Nat.lt_of_succ_lt hn)) ?_
    refine Finset.sum_congr rfl fun r _ => ?_
    have hb := blk0_apply V c ⟨n + 1, hn⟩ r j _ _ rfl rfl
    rw [hb]

/-! ## Regrouping: 25 blocks of 2000 rows are the 50000 rows -/

/-- A sum over 25 blocks of 2000 consecutive rows is the sum over the 50000 rows. -/
theorem sum_blocks (f : ℕ → EReal) :
    ∑ s ∈ Finset.range 25, ∑ r : Fin 2000, f (s * 2000 + r.val) = ∑ n : Fin 50000, f n.val := by
  rw [Finset.sum_range, ← ValueSums.sum_fin_mul 25 2000 f]

/-- The column sums of the biased array. -/
def colSums (A : S50000x256.Idx → EReal) (b : S1x256.Idx → EReal) : S1x256.Idx → EReal :=
  fun i => ∑ n : Fin 50000, (A (ix2 n (i 1)) + b (ix2 (0 : Fin 1) (i 1)))

/-- The column sums of the squares of the biased array. -/
def colSumSqs (A : S50000x256.Idx → EReal) (b : S1x256.Idx → EReal) : S1x256.Idx → EReal :=
  fun i => ∑ n : Fin 50000, (A (ix2 n (i 1)) + b (ix2 (0 : Fin 1) (i 1))) * (A (ix2 n (i 1)) + b (ix2 (0 : Fin 1) (i 1)))

theorem biasedRow_fin (A : S50000x256.Idx → EReal) (b : S1x256.Idx → EReal) (j : Fin 256) (n : Fin 50000) :
    biasedRow A b j n.val = A (ix2 n j) + b (ix2 (0 : Fin 1) j) := by
  unfold biasedRow
  rw [dif_pos n.isLt]

/-! ## The two result arrays -/

theorem mem_blk1_2 (t : Fin cfg1.N) (i : S1x256.Idx) :
    i ∈ ((cfg1.win 2).blk t).view.set ↔ ∀ a : Fin 2, win1_2.index t a * S1x256.size a ≤ (i a).val ∧ (i a).val < win1_2.index t a * S1x256.size a + S1x256.size a := by
  show i ∈ ((View.whole main_v17_0).slice (win1_2.rect t)).set ↔ _
  rw [View.set_slice_whole, Rect.mem_set_unit]
  exact Iff.rfl

theorem mem_blk1_3 (t : Fin cfg1.N) (i : S1x256.Idx) :
    i ∈ ((cfg1.win 3).blk t).view.set ↔ ∀ a : Fin 2, win1_3.index t a * S1x256.size a ≤ (i a).val ∧ (i a).val < win1_3.index t a * S1x256.size a + S1x256.size a := by
  show i ∈ ((View.whole main_v17_1).slice (win1_3.rect t)).set ↔ _
  rw [View.set_slice_whole, Rect.mem_set_unit]
  exact Iff.rfl

/-- The last point, whose write-back covers each of the two rows whole. -/
def lastPoint : Fin cfg1.N := ⟨24, by rw [show cfg1.N = 25 from N_1]; omega⟩

theorem cover1_2 (i : S1x256.Idx) : ∃ t : Fin cfg1.N, (cfg1.win 2).flush t = true ∧ i ∈ ((cfg1.win 2).blk t).view.set := by
  have h0 : (i 0).val < 1 := (i 0).isLt
  have h1 : (i 1).val < 256 := (i 1).isLt
  obtain ⟨e0, e1, e2, e3, e4, e5, e6, e7⟩ := idx_facts1 lastPoint
  refine ⟨lastPoint, (flush1_2 lastPoint).mpr rfl, ?_⟩
  rw [mem_blk1_2]
  intro a
  match a with
  | ⟨0, _⟩ => show win1_2.index lastPoint (0 : Fin 2) * 1 ≤ (i 0).val ∧ (i 0).val < win1_2.index lastPoint (0 : Fin 2) * 1 + 1; omega
  | ⟨1, _⟩ => show win1_2.index lastPoint (1 : Fin 2) * 256 ≤ (i 1).val ∧ (i 1).val < win1_2.index lastPoint (1 : Fin 2) * 256 + 256; omega

theorem cover1_3 (i : S1x256.Idx) : ∃ t : Fin cfg1.N, (cfg1.win 3).flush t = true ∧ i ∈ ((cfg1.win 3).blk t).view.set := by
  have h0 : (i 0).val < 1 := (i 0).isLt
  have h1 : (i 1).val < 256 := (i 1).isLt
  obtain ⟨e0, e1, e2, e3, e4, e5, e6, e7⟩ := idx_facts1 lastPoint
  refine ⟨lastPoint, (flush1_3 lastPoint).mpr rfl, ?_⟩
  rw [mem_blk1_3]
  intro a
  match a with
  | ⟨0, _⟩ => show win1_3.index lastPoint (0 : Fin 2) * 1 ≤ (i 0).val ∧ (i 0).val < win1_3.index lastPoint (0 : Fin 2) * 1 + 1; omega
  | ⟨1, _⟩ => show win1_3.index lastPoint (1 : Fin 2) * 256 ≤ (i 1).val ∧ (i 1).val < win1_3.index lastPoint (1 : Fin 2) * 256 + 256; omega

set_option maxRecDepth 400000 in
/-- What a writing-back point writes back of the sums' row is the column sums over all rows. -/
theorem flushed1_2_eq (c : Dev nD) (t : Fin cfg1.N) (hf : (cfg1.win 2).flush t = true) :
    (dat1 V c).flushed 2 t = ((cfg1.win 2).blk t).view.read (Elt Ideal) (colSums (V c main_v15) (V c main_v16)) := by
  have ht : t.val % 25 = 24 := (flush1_2 t).mp hf
  have hN : t.val < 25 := lt_of_lt_of_eq t.isLt (show cfg1.N = 25 from N_1)
  have ht24 : t.val = 24 := by omega
  obtain ⟨e0, e1, e2, e3, e4, e5, e6, e7⟩ := idx_facts1 t
  show (cfg1.win 2).cut (grid1.coords t) ((dat1 V c).after 2 t) = _
  rw [after1_2]
  funext y
  obtain ⟨u, j, rfl⟩ : ∃ (u : Fin 1) (j : Fin 256), y = ix2 u j := ⟨y 0, y 1, eq_ix2 y⟩
  have hu : u = 0 := Fin.ext (by omega)
  subst hu
  have hx : (cfg1.win 2).xinj (grid1.coords t) (ix2 (0 : Fin 1) j) = ix2 (0 : Fin 1) j := funext fun a => Fin.ext (by
    match a with
    | ⟨0, _⟩ => rfl
    | ⟨1, _⟩ => rfl)
  have hE : ((cfg1.win 2).blk t).view.emb (ix2 (0 : Fin 1) j) = ix2 (0 : Fin 1) j := by
    funext a; apply Fin.ext
    match a with
    | ⟨0, _⟩ => show win1_2.index t (0 : Fin 2) * 1 + 1 * 0 = 0; omega
    | ⟨1, _⟩ => show win1_2.index t (1 : Fin 2) * 256 + 1 * j.val = j.val; omega
  show (outsAt1 V c t.val t.isLt).1 ((cfg1.win 2).xinj (grid1.coords t) (ix2 (0 : Fin 1) j))
    = colSums (V c main_v15) (V c main_v16) (((cfg1.win 2).blk t).view.emb (ix2 (0 : Fin 1) j))
  refine (congrArg (outsAt1 V c t.val t.isLt).1 hx).trans (Eq.trans ?_ (congrArg (colSums (V c main_v15) (V c main_v16)) hE.symm))
  have hr : Finset.range (t.val + 1) = Finset.range 25 := by rw [ht24]
  refine (sums_after V c j t.val t.isLt).trans ?_
  rw [hr]
  refine (sum_blocks (fun n => biasedRow (V c main_v15) (V c main_v16) j n)).trans ?_
  exact Finset.sum_congr rfl fun n _ => biasedRow_fin _ _ j n

set_option maxRecDepth 400000 in
/-- … and of the squares' row, the column sums of the squares. -/
theorem flushed1_3_eq (c : Dev nD) (t : Fin cfg1.N) (hf : (cfg1.win 3).flush t = true) :
    (dat1 V c).flushed 3 t = ((cfg1.win 3).blk t).view.read (Elt Ideal) (colSumSqs (V c main_v15) (V c main_v16)) := by
  have ht : t.val % 25 = 24 := (flush1_3 t).mp hf
  have hN : t.val < 25 := lt_of_lt_of_eq t.isLt (show cfg1.N = 25 from N_1)
  have ht24 : t.val = 24 := by omega
  obtain ⟨e0, e1, e2, e3, e4, e5, e6, e7⟩ := idx_facts1 t
  show (cfg1.win 3).cut (grid1.coords t) ((dat1 V c).after 3 t) = _
  rw [after1_3]
  funext y
  obtain ⟨u, j, rfl⟩ : ∃ (u : Fin 1) (j : Fin 256), y = ix2 u j := ⟨y 0, y 1, eq_ix2 y⟩
  have hu : u = 0 := Fin.ext (by omega)
  subst hu
  have hx : (cfg1.win 3).xinj (grid1.coords t) (ix2 (0 : Fin 1) j) = ix2 (0 : Fin 1) j := funext fun a => Fin.ext (by
    match a with
    | ⟨0, _⟩ => rfl
    | ⟨1, _⟩ => rfl)
  have hE : ((cfg1.win 3).blk t).view.emb (ix2 (0 : Fin 1) j) = ix2 (0 : Fin 1) j := by
    funext a; apply Fin.ext
    match a with
    | ⟨0, _⟩ => show win1_3.index t (0 : Fin 2) * 1 + 1 * 0 = 0; omega
    | ⟨1, _⟩ => show win1_3.index t (1 : Fin 2) * 256 + 1 * j.val = j.val; omega
  show (outsAt1 V c t.val t.isLt).2 ((cfg1.win 3).xinj (grid1.coords t) (ix2 (0 : Fin 1) j))
    = colSumSqs (V c main_v15) (V c main_v16) (((cfg1.win 3).blk t).view.emb (ix2 (0 : Fin 1) j))
  refine (congrArg (outsAt1 V c t.val t.isLt).2 hx).trans (Eq.trans ?_ (congrArg (colSumSqs (V c main_v15) (V c main_v16)) hE.symm))
  have hr : Finset.range (t.val + 1) = Finset.range 25 := by rw [ht24]
  refine (squares_after V c j t.val t.isLt).trans ?_
  rw [hr]
  refine (sum_blocks (fun n => biasedRow (V c main_v15) (V c main_v16) j n * biasedRow (V c main_v15) (V c main_v16) j n)).trans ?_
  exact Finset.sum_congr rfl fun n _ => congrArg₂ (· * ·) (biasedRow_fin _ _ j n) (biasedRow_fin _ _ j n)

/-- The two result arrays after the region: the column sums, and the column sums of squares, of the biased array. -/
theorem region1_sums (c : Dev nD) : (dat1 V c).arrAt 2 cfg1.N = colSums (V c main_v15) (V c main_v16) :=
  (dat1 V c).arrAt_eq_of_cover 2 _ (fun t hf => flushed1_2_eq V c t hf) cover1_2

theorem region1_squares (c : Dev nD) : (dat1 V c).arrAt 3 cfg1.N = colSumSqs (V c main_v15) (V c main_v16) :=
  (dat1 V c).arrAt_eq_of_cover 3 _ (fun t hf => flushed1_3_eq V c t hf) cover1_3

end Cert.KernelIdeal.Regions

end
-- ==== Proof.Region2.lean ====
/-
  Region 2: batch-norm normalisation, ReLU and the second linear layer, row block by row block.

  Point t loads rows 2000·t … 2000·t + 1999 of the aggregated array, five parameter rows (bias, column mean,
  inverse standard deviation, scale, shift) and the whole weight matrix; it forms
  max(((a + bias − mean)·invstd)·scale + shift, 0) entry by entry and multiplies the block by the weights.
  The 25 row blocks tile the 50000 rows, so the result array ends as the matrix product of the normalised,
  rectified array with the weights.
-/
import proofs.«101625_j39247411151462_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem off2_zero2 : (![0, 0] : Fin 2 → Nat) = fun _ => 0 := funext fun a => by fin_cases a <;> rfl

/-- A [50000, 256] array plus a bias row, normalised column by column, scaled, shifted and rectified. -/
def normRelu (A : S50000x256.Idx → EReal) (b mean invstd scale shift : S1x256.Idx → EReal) : S50000x256.Idx → EReal :=
  fun i => max ((((A i + b (ix2 (0 : Fin 1) (i 1))) - mean (ix2 (0 : Fin 1) (i 1))) * invstd (ix2 (0 : Fin 1) (i 1))) * scale (ix2 (0 : Fin 1) (i 1))
      + shift (ix2 (0 : Fin 1) (i 1))) (Ideal.ofBits .f32 0x00000000#32)

/-- The matrix product of a [50000, 256] array and a [256, 128] array. -/
def matProd2 (H : S50000x256.Idx → EReal) (W : S256x128.Idx → EReal) : S50000x128.Idx → EReal :=
  fun i => ∑ k : Fin 256, H (ix2 (i 0) k) * W (ix2 k (i 1))

/-- The block before the product: the printed chain of casts, broadcasts and pointwise operations. -/
def act2 (x0 : FVec Ideal S2000x256 .f32) (x1 x2 x3 x4 x5 : FVec Ideal S1x256 .f32) : FVec Ideal S2000x256 .f32 :=
  maximumf (addf (mulf (mulf (subf (addf (shapeCast S2000x256 x0 shapeCasts_S2000x256_S2000x256)
      (broadcastTo S2000x256 (shapeCast S1x256 x1 shapeCasts_S1x256_S1x256) broadcasts_S1x256_S2000x256))
      (broadcastTo S2000x256 (shapeCast S1x256 x2 shapeCasts_S1x256_S1x256) broadcasts_S1x256_S2000x256))
      (broadcastTo S2000x256 (shapeCast S1x256 x3 shapeCasts_S1x256_S1x256) broadcasts_S1x256_S2000x256))
      (broadcastTo S2000x256 (shapeCast S1x256 x4 shapeCasts_S1x256_S1x256) broadcasts_S1x256_S2000x256))
      (broadcastTo S2000x256 (shapeCast S1x256 x5 shapeCasts_S1x256_S1x256) broadcasts_S1x256_S2000x256))
    (broadcast S2000x256 (Scalar.ofBits .f32 0x00000000#32))

/-- That block at (r, k). -/
theorem act2_apply (x0 : FVec Ideal S2000x256 .f32) (x1 x2 x3 x4 x5 : FVec Ideal S1x256 .f32) (r : Fin 2000) (k : Fin 256) :
    act2 x0 x1 x2 x3 x4 x5 (ix2 r k)
      = max ((((x0 (ix2 r k) + x1 (ix2 (0 : Fin 1) k)) - x2 (ix2 (0 : Fin 1) k)) * x3 (ix2 (0 : Fin 1) k)) * x4 (ix2 (0 : Fin 1) k)
          + x5 (ix2 (0 : Fin 1) k)) (Ideal.ofBits .f32 0x00000000#32) := by
  unfold act2
  rw [maximumf_apply, addf_apply, mulf_apply, mulf_apply, subf_apply, addf_apply]
  simp only [shapeCast_self]
  rw [broadcastTo_1b_ab_apply x1 broadcasts_S1x256_S2000x256 r k, broadcastTo_1b_ab_apply x2 broadcasts_S1x256_S2000x256 r k,
    broadcastTo_1b_ab_apply x3 broadcasts_S1x256_S2000x256 r k, broadcastTo_1b_ab_apply x4 broadcasts_S1x256_S2000x256 r k,
    broadcastTo_1b_ab_apply x5 broadcasts_S1x256_S2000x256 r k]
  rfl

theorem dot2_lhs0 (i : S2000x128.Idx) (q : dot_S2000x256_S256x128_S2000x128_1_0_0_1_n_n.contr.Idx) : (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem dot2_lhs1 (i : S2000x128.Idx) (q : dot_S2000x256_S256x128_S2000x128_1_0_0_1_n_n.contr.Idx) : (dot_S2000x256_S256x128_S2000x128_1_0_0_1_n_n.lhsIdx i q 1).val = (q ⟨0, by decide⟩).val :=
  dot_S2000x256_S256x128_S2000x128_1_0_0_1_n_n.lhsIdx_val_of_single rfl i q
theorem dot2_rhs0 (i : S2000x128.Idx) (q : dot_S2000x256_S256x128_S2000x128_1_0_0_1_n_n.contr.Idx) : (dot_S2000x256_S256x128_S2000x128_1_0_0_1_n_n.rhsIdx i q 0).val = (q ⟨0, by decide⟩).val :=
  dot_S2000x256_S256x128_S2000x128_1_0_0_1_n_n.rhsIdx_val_of_single rfl i q
theorem dot2_rhs1 (i : S2000x128.Idx) (q : dot_S2000x256_S256x128_S2000x128_1_0_0_1_n_n.contr.Idx) : (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The block's result at (r, j): the sum over k of the rectified entry (r, k) times the weights' (k, j). -/
theorem pay2_apply (x0 : FVec Ideal S2000x256 .f32) (x1 x2 x3 x4 x5 : FVec Ideal S1x256 .f32) (x6 : FVec Ideal S256x128 .f32) (r : Fin 2000) (j : Fin 128) :
    k2_pay1 (F := Ideal) x0 x1 x2 x3 x4 x5 x6 (ix2 r j)
      = ∑ k : Fin 256, max ((((x0 (ix2 r k) + x1 (ix2 (0 : Fin 1) k)) - x2 (ix2 (0 : Fin 1) k)) * x3 (ix2 (0 : Fin 1) k)) * x4 (ix2 (0 : Fin 1) k)
          + x5 (ix2 (0 : Fin 1) k)) (Ideal.ofBits .f32 0x00000000#32) * x6 (ix2 k j) := by
  show FloatOps.matmul dot_S2000x256_S256x128_S2000x128_1_0_0_1_n_n none (truncf .bf16 (act2 x0 x1 x2 x3 x4 x5) bitsLt_bf16_f32) (truncf .bf16 x6 bitsLt_bf16_f32)
    (constant S2000x128 .f32 0x00000000#32) (ix2 r j) = _
  refine (Ideal.matmul_constant_zero_apply dot_S2000x256_S256x128_S2000x128_1_0_0_1_n_n none _ _ (ix2 r j)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r j) ((ValueIdx.contrEquiv1 dot_S2000x256_S256x128_S2000x128_1_0_0_1_n_n 256 rfl rfl).symm k) = ix2 r k := funext fun a => Fin.ext (by
    match a with
    | ⟨0, _⟩ => exact dot2_lhs0 _ _
    | ⟨1, _⟩ => exact (dot2_lhs1 _ _).trans hk)
  have er : dot_S2000x256_S256x128_S2000x128_1_0_0_1_n_n.rhsIdx (ix2 r j) ((ValueIdx.contrEquiv1 dot_S2000x256_S256x128_S2000x128_1_0_0_1_n_n 256 rfl rfl).symm k) = ix2 k j := funext fun a => Fin.ext (by
    match a with
    | ⟨0, _⟩ => exact (dot2_rhs0 _ _).trans hk
    | ⟨1, _⟩ => exact dot2_rhs1 _ _)
  show act2 x0 x1 x2 x3 x4 x5 (dot_S2000x256_S256x128_S2000x128_1_0_0_1_n_n.lhsIdx (ix2 r j) _) * x6 (dot_S2000x256_S256x128_S2000x128_1_0_0_1_n_n.rhsIdx (ix2 r j) _) = _
  rw [el, er, act2_apply]

/-- The printed index maps over the grid: the row blocks move with the point, every parameter stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

variable (V : (c : Dev nD) → (b : Ref sig .tc) → Buf (Elt Ideal) ((c : Thread nD τ).loc b))

/-- What point t writes back is block t of the product of the normalised, rectified array with the weights. -/
theorem flushed2_eq (c : Dev nD) (t : Fin cfg2.N) :
    (dat2 V c).flushed 7 t = ((cfg2.win 7).blk t).view.read (Elt Ideal)
      (matProd2 (normRelu (V c main_v15) (V c main_v16) (V c main_v19) (V c main_v28) (V c main_v29) (V c main_v30)) (V c main_arg6)) := by
  show (cfg2.win 7).cut (grid2.coords t) ((dat2 V c).after 7 t) = _
  rw [after2_7]
  unfold out2_7
  rw [View.canon_unit_zero off2_zero2]
  simp only [View.ld_unit_zero (S := S2000x256) off2_zero2, View.ld_unit_zero (S := S1x256) off2_zero2, View.ld_unit_zero (S := S256x128) off2_zero2]
  obtain ⟨e0, e1, e2, e3, e4, e5, e6, e7, e8, e9, e10, e11, e12, e13, e14, e15⟩ := idx_facts2 t
  funext y
  obtain ⟨r, j, rfl⟩ : ∃ (r : Fin 2000) (j : Fin 128), y = ix2 r j := ⟨y 0, y 1, eq_ix2 y⟩
  show k2_pay1 (F := Ideal) (iblk2 V c 0 t) (iblk2 V c 1 t) (iblk2 V c 2 t) (iblk2 V c 3 t) (iblk2 V c 4 t) (iblk2 V c 5 t) (iblk2 V c 6 t) (ix2 r j)
    = matProd2 (normRelu (V c main_v15) (V c main_v16) (V c main_v19) (V c main_v28) (V c main_v29) (V c main_v30)) (V c main_arg6) (((cfg2.win 7).blk t).view.emb (ix2 r j))
  refine (pay2_apply (iblk2 V c 0 t) (iblk2 V c 1 t) (iblk2 V c 2 t) (iblk2 V c 3 t) (iblk2 V c 4 t) (iblk2 V c 5 t) (iblk2 V c 6 t) r j).trans ?_
  unfold matProd2 normRelu
  refine Finset.sum_congr rfl fun k _ => ?_
  have h0 : iblk2 V c 0 t (ix2 r k) = (V c main_v15 : S50000x256.Idx → EReal) (ix2 ((((cfg2.win 7).blk t).view.emb (ix2 r j)) 0) k) := by
    show V c main_v15 (((cfg2.win 0).blk t).view.emb (ix2 r k)) = _
    refine congrArg _ ?_
    funext a; apply Fin.ext
    match a with
    | ⟨0, _⟩ => show win2_0.index t (0 : Fin 2) * 2000 + 1 * r.val = win2_7.index t (0 : Fin 2) * 2000 + 1 * r.val; omega
    | ⟨1, _⟩ => show win2_0.index t (1 : Fin 2) * 256 + 1 * k.val = k.val; omega
  have h1 : iblk2 V c 1 t (ix2 (0 : Fin 1) k) = (V c main_v16 : S1x256.Idx → EReal) (ix2 (0 : Fin 1) k) := by
    show V c main_v16 (((cfg2.win 1).blk t).view.emb (ix2 (0 : Fin 1) k)) = _
    refine congrArg _ ?_
    funext a; apply Fin.ext
    match a with
    | ⟨0, _⟩ => show win2_1.index t (0 : Fin 2) * 1 + 1 * 0 = 0; omega
    | ⟨1, _⟩ => show win2_1.index t (1 : Fin 2) * 256 + 1 * k.val = k.val; omega
  have h2 : iblk2 V c 2 t (ix2 (0 : Fin 1) k) = (V c main_v19 : S1x256.Idx → EReal) (ix2 (0 : Fin 1) k) := by
    show V c main_v19 (((cfg2.win 2).blk t).view.emb (ix2 (0 : Fin 1) k)) = _
    refine congrArg _ ?_
    funext a; apply Fin.ext
    match a with
    | ⟨0, _⟩ => show win2_2.index t (0 : Fin 2) * 1 + 1 * 0 = 0; omega
    | ⟨1, _⟩ => show win2_2.index t (1 : Fin 2) * 256 + 1 * k.val = k.val; omega
  have h3 : iblk2 V c 3 t (ix2 (0 : Fin 1) k) = (V c main_v28 : S1x256.Idx → EReal) (ix2 (0 : Fin 1) k) := by
    show V c main_v28 (((cfg2.win 3).blk t).view.emb (ix2 (0 : Fin 1) k)) = _
    refine congrArg _ ?_
    funext a; apply Fin.ext
    match a with
    | ⟨0, _⟩ => show win2_3.index t (0 : Fin 2) * 1 + 1 * 0 = 0; omega
    | ⟨1, _⟩ => show win2_3.index t (1 : Fin 2) * 256 + 1 * k.val = k.val; omega
  have h4 : iblk2 V c 4 t (ix2 (0 : Fin 1) k) = (V c main_v29 : S1x256.Idx → EReal) (ix2 (0 : Fin 1) k) := by
    show V c main_v29 (((cfg2.win 4).blk t).view.emb (ix2 (0 : Fin 1) k)) = _
    refine congrArg _ ?_
    funext a; apply Fin.ext
    match a with
    | ⟨0, _⟩ => show win2_4.index t (0 : Fin 2) * 1 + 1 * 0 = 0; omega
    | ⟨1, _⟩ => show win2_4.index t (1 : Fin 2) * 256 + 1 * k.val = k.val; omega
  have h5 : iblk2 V c 5 t (ix2 (0 : Fin 1) k) = (V c main_v30 : S1x256.Idx → EReal) (ix2 (0 : Fin 1) k) := by
    show V c main_v30 (((cfg2.win 5).blk t).view.emb (ix2 (0 : Fin 1) k)) = _
    refine congrArg _ ?_
    funext a; apply Fin.ext
    match a with
    | ⟨0, _⟩ => show win2_5.index t (0 : Fin 2) * 1 + 1 * 0 = 0; omega
    | ⟨1, _⟩ => show win2_5.index t (1 : Fin 2) * 256 + 1 * k.val = k.val; omega
  have h6 : iblk2 V c 6 t (ix2 k j) = (V c main_arg6 : S256x128.Idx → EReal) (ix2 k ((((cfg2.win 7).blk t).view.emb (ix2 r j)) 1)) := by
    show V c main_arg6 (((cfg2.win 6).blk t).view.emb (ix2 k j)) = _
    refine congrArg _ ?_
    funext a; apply Fin.ext
    match a with
    | ⟨0, _⟩ => show win2_6.index t (0 : Fin 2) * 256 + 1 * k.val = k.val; omega
    | ⟨1, _⟩ => show win2_6.index t (1 : Fin 2) * 128 + 1 * j.val = win2_7.index t (1 : Fin 2) * 128 + 1 * j.val; omega
  rw [h0, h1, h2, h3, h4, h5, h6]

theorem mem_blk2 (t : Fin cfg2.N) (i : S50000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v31).slice (win2_7.rect t)).set ↔ _
  rw [View.set_slice_whole, Rect.mem_set_unit]
  exact Iff.rfl

theorem cover2 (i : S50000x128.Idx) : ∃ t : Fin cfg2.N, (cfg2.win 7).flush t = true ∧ i ∈ ((cfg2.win 7).blk t).view.set := by
  have h0 : (i 0).val < 50000 := (i 0).isLt
  have h1 : (i 1).val < 128 := (i 1).isLt
  have hN : cfg2.N = 25 := N_2
  let t : Fin cfg2.N := ⟨(i 0).val / 2000, by rw [hN]; omega⟩
  obtain ⟨e0, e1, e2, e3, e4, e5, e6, e7, e8, e9, e10, e11, e12, e13, e14, e15⟩ := idx_facts2 t
  have ht : t.val = (i 0).val / 2000 := rfl
  refine ⟨t, flush2_7 t, ?_⟩
  rw [mem_blk2]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 128 ≤ (i 1).val ∧ (i 1).val < win2_7.index t (1 : Fin 2) * 128 + 128; omega

/-- The result array after the region. -/
theorem region2_value (c : Dev nD) : (dat2 V c).arrAt 7 cfg2.N
    = matProd2 (normRelu (V c main_v15) (V c main_v16) (V c main_v19) (V c main_v28) (V c main_v29) (V c main_v30)) (V c main_arg6) :=
  (dat2 V c).arrAt_eq_of_cover 7 _ (fun t _ => flushed2_eq V c t) cover2

end Cert.KernelIdeal.Regions

end
-- ==== Proof.LibLayout.lean ====
/-
  Layout operations around a unit MIDDLE or TRAILING axis, read at an index written by coordinates,
  for any element type and any extents: a shape cast that drops or inserts a unit axis in the middle
  ([a,1,b] ↔ [a,b]), the "keepdims" column of a vector ([a] → [a,1]) and its broadcast along the rows
  ([a,1] → [a,b]).  Each is the library's read-at-an-index lemma with the row-major arithmetic done.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, 1, b]` array cast to `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ValueIdx
-- ==== Proof.Region3.lean ====
/-
  Region 3: bias add and row normalisation, row block by row block.

  Point t loads rows 2000·t … 2000·t + 1999 of the aggregated array and the bias row, adds the bias, and
  divides every entry by its row's Euclidean norm — the square root of the row's sum of squares — clamped
  below at a small positive literal. A row's result depends on that row alone, and the 25 row blocks tile
  the 50000 rows, so the result array ends as the same formula of the whole arrays.
-/
import proofs.«101625_j39247411151462_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«101625_j39247411151462_2_alg».proof.Proof.LibLayout

set_option maxRecDepth 16384

noncomputable section

namespace Cert.KernelIdeal.Regions

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem off2_zero3 : (![0, 0] : Fin 2 → Nat) = fun _ => 0 := funext fun a => by fin_cases a <;> rfl

/-- Rows of a [50000, 128] array plus a bias row, each divided by its Euclidean norm clamped below. -/
def rowNormalized (A : S50000x128.Idx → EReal) (b : S1x128.Idx → EReal) : S50000x128.Idx → EReal :=
  fun i => Ideal.div (A i + b (ix2 (0 : Fin 1) (i 1)))
    (max (Ideal.sqrt (∑ q : Fin 128, (A (ix2 (i 0) q) + b (ix2 (0 : Fin 1) q)) * (A (ix2 (i 0) q) + b (ix2 (0 : Fin 1) q))))
      (Ideal.ofBits .f32 0x2B8CBCCC#32))

/-- A lane sum of a [2000, 128] block at row r is the sum over the row. -/
theorem rowSum3 (src : FVec Ideal S2000x128 .f32) (r : Fin 2000) :
    multiReduction .add [1] S2000 src 0x00000000#32 reduces_S2000x128_S2000 (.inl rfl) rfl (ix1 r) = ∑ q : Fin 128, src (ix2 r q) := by
  refine (Ideal.multiReduction_add_single src 0x00000000#32 reduces_S2000x128_S2000 (.inl rfl) rfl (ix1 r)).trans ?_
  show ∑ q : Fin 128, src (reduces_S2000x128_S2000.lift (ix1 r) q) = _
  refine Finset.sum_congr rfl fun q _ => congrArg src ?_
  funext a; apply Fin.ext
  match a with
  | ⟨0, _⟩ => rfl
  | ⟨1, _⟩ => rfl

/-- The biased block at (r, q). -/
theorem biased3_apply (x0 : FVec Ideal S2000x128 .f32) (x1 : FVec Ideal S1x128 .f32) (r : Fin 2000) (q : Fin 128) :
    addf (shapeCast S2000x128 x0 shapeCasts_S2000x128_S2000x128) (broadcastTo S2000x128 (shapeCast S1x128 x1 shapeCasts_S1x128_S1x128) broadcasts_S1x128_S2000x128) (ix2 r q)
      = x0 (ix2 r q) + x1 (ix2 (0 : Fin 1) q) := by
  rw [addf_apply, shapeCast_self, shapeCast_self]
  exact congrArg (x0 (ix2 r q) + ·) (broadcastTo_1b_ab_apply x1 broadcasts_S1x128_S2000x128 r q)

/-- The block's result at (r, j). -/
theorem pay3_apply (x0 : FVec Ideal S2000x128 .f32) (x1 : FVec Ideal S1x128 .f32) (r : Fin 2000) (j : Fin 128) :
    k3_pay1 (F := Ideal) x0 x1 (ix2 r j)
      = Ideal.div (x0 (ix2 r j) + x1 (ix2 (0 : Fin 1) j))
          (max (Ideal.sqrt (∑ q : Fin 128, (x0 (ix2 r q) + x1 (ix2 (0 : Fin 1) q)) * (x0 (ix2 r q) + x1 (ix2 (0 : Fin 1) q))))
            (Ideal.ofBits .f32 0x2B8CBCCC#32)) := by
  unfold k3_pay1
  dsimp only
  rw [divf_apply, biased3_apply]
  refine congrArg (Ideal.div _) ?_
  rw [broadcastTo_a1_ab_apply _ broadcasts_S2000x1_S2000x128 r j, maximumf_apply]
  refine congrArg₂ max ?_ rfl
  show Ideal.sqrt (shapeCast S2000x1 _ shapeCasts_S2000_S2000x1 (ix2 r (0 : Fin 1))) = _
  rw [shapeCast_a_a1_apply _ shapeCasts_S2000_S2000x1 r (0 : Fin 1), rowSum3]
  refine congrArg Ideal.sqrt (Finset.sum_congr rfl fun q _ => ?_)
  rw [mulf_apply, biased3_apply]

/-- The printed index maps over the grid. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the row-normalised array. -/
theorem flushed3_eq (c : Dev nD) (t : Fin cfg3.N) :
    (dat3 V c).flushed 2 t = ((cfg3.win 2).blk t).view.read (Elt Ideal) (rowNormalized (V c main_v42) (V c main_v43)) := by
  show (cfg3.win 2).cut (grid3.coords t) ((dat3 V c).after 2 t) = _
  rw [after3_2]
  unfold out3_2
  rw [View.canon_unit_zero off2_zero3]
  simp only [View.ld_unit_zero (S := S2000x128) off2_zero3, View.ld_unit_zero (S := S1x128) off2_zero3]
  obtain ⟨e0, e1, e2, e3, e4, e5⟩ := idx_facts3 t
  funext y
  obtain ⟨r, j, rfl⟩ : ∃ (r : Fin 2000) (j : Fin 128), y = ix2 r j := ⟨y 0, y 1, eq_ix2 y⟩
  show k3_pay1 (F := Ideal) (iblk3 V c 0 t) (iblk3 V c 1 t) (ix2 r j) = rowNormalized (V c main_v42) (V c main_v43) (((cfg3.win 2).blk t).view.emb (ix2 r j))
  refine (pay3_apply (iblk3 V c 0 t) (iblk3 V c 1 t) r j).trans ?_
  unfold rowNormalized
  have hA : ∀ q : Fin 128, iblk3 V c 0 t (ix2 r q) = (V c main_v42 : S50000x128.Idx → EReal) (ix2 ((((cfg3.win 2).blk t).view.emb (ix2 r j)) 0) q) := fun q => by
    show V c main_v42 (((cfg3.win 0).blk t).view.emb (ix2 r q)) = _
    refine congrArg _ ?_
    funext a; apply Fin.ext
    match a with
    | ⟨0, _⟩ => show win3_0.index t (0 : Fin 2) * 2000 + 1 * r.val = win3_2.index t (0 : Fin 2) * 2000 + 1 * r.val; omega
    | ⟨1, _⟩ => show win3_0.index t (1 : Fin 2) * 128 + 1 * q.val = q.val; omega
  have hB : ∀ q : Fin 128, iblk3 V c 1 t (ix2 (0 : Fin 1) q) = (V c main_v43 : S1x128.Idx → EReal) (ix2 (0 : Fin 1) q) := fun q => by
    show V c main_v43 (((cfg3.win 1).blk t).view.emb (ix2 (0 : Fin 1) q)) = _
    refine congrArg _ ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have hj : (((cfg3.win 2).blk t).view.emb (ix2 r j)) = ix2 ((((cfg3.win 2).blk t).view.emb (ix2 r j)) 0) j := by
    funext a; apply Fin.ext
    match a with
    | ⟨0, _⟩ => rfl
    | ⟨1, _⟩ => show win3_2.index t (1 : Fin 2) * 128 + 1 * j.val = j.val; omega
  simp only [hA, hB]
  refine congrArg₂ Ideal.div (congrArg₂ (· + ·) ?_ ?_) rfl
  · exact congrArg (V c main_v42 : S50000x128.Idx → EReal) hj.symm
  · refine congrArg (V c main_v43 : S1x128.Idx → EReal) ?_
    funext a; apply Fin.ext
    match a with
    | ⟨0, _⟩ => rfl
    | ⟨1, _⟩ => show j.val = win3_2.index t (1 : Fin 2) * 128 + 1 * j.val; omega

theorem mem_blk3 (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v44).slice (win3_2.rect t)).set ↔ _
  rw [View.set_slice_whole, Rect.mem_set_unit]
  exact Iff.rfl

theorem cover3 (i : S50000x128.Idx) : ∃ t : Fin cfg3.N, (cfg3.win 2).flush t = true ∧ i ∈ ((cfg3.win 2).blk t).view.set := by
  have h0 : (i 0).val < 50000 := (i 0).isLt
  have h1 : (i 1).val < 128 := (i 1).isLt
  have hN : cfg3.N = 25 := N_3
  let t : Fin cfg3.N := ⟨(i 0).val / 2000, by rw [hN]; omega⟩
  obtain ⟨e0, e1, e2, e3, e4, e5⟩ := idx_facts3 t
  have ht : t.val = (i 0).val / 2000 := rfl
  refine ⟨t, flush3_2 t, ?_⟩
  rw [mem_blk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The result array after the region: the bias-added rows, each divided by its clamped norm. -/
theorem region3_value (c : Dev nD) : (dat3 V c).arrAt 2 cfg3.N = rowNormalized (V c main_v42) (V c main_v43) :=
  (dat3 V c).arrAt_eq_of_cover 2 (rowNormalized (V c main_v42) (V c main_v43)) (fun t _ => flushed3_eq V c t) cover3

end Cert.KernelIdeal.Regions

end
-- ==== Proof.Chain.lean ====
/-
  The idealized kernel's result as one function of the argument arrays.

  The contents of the TensorCore's buffers are threaded through @main: a stretch of host operations applies its
  operations to what it finds, a region leaves its result arrays at the value its blocks compute and everything
  else in place. Reading the last boundary back, stretch by stretch and region by region: the first product
  X·W1 is gathered along the edges' sources and summed into the edges' targets; its columns' sums and sums of
  squares give the column mean and the inverse standard deviation; the normalised, rectified array times W2 is
  gathered and summed along the edges again; and each row, bias added, is divided by its clamped norm.
-/
import proofs.«101625_j39247411151462_2_alg».proof.Proof.KernelRun
import proofs.«101625_j39247411151462_2_alg».proof.Proof.Region0
import proofs.«101625_j39247411151462_2_alg».proof.Proof.Region1
import proofs.«101625_j39247411151462_2_alg».proof.Proof.Region2
import proofs.«101625_j39247411151462_2_alg».proof.Proof.Region3
import Idealize.ShloMosaic.Lib.StableHlo.Run

set_option maxRecDepth 16384

noncomputable section

namespace Cert.KernelIdeal.Chain

open Cert.KernelIdeal Cert.KernelIdeal.Gen Cert.KernelIdeal.Regions
open Idealize.ShloMosaic Idealize.ShloMosaic.TcCoe Idealize.ShloMosaic.ValueIdx Idealize.SL.Sem Idealize.ShloMosaic.StableHlo

/-! ## The host stretches' terms -/

/-- The edges' sources: row 0 of the edge array. -/
def srcOf (e : (⟨S2x800000, .i32⟩ : BufTy).Contents (Elt Ideal)) : (⟨S800000, .i32⟩ : BufTy).Contents (Elt Ideal) :=
  shapeCast S800000 (extractStridedSlice S1x800000 ![0, 0] e slices_S2x800000_S1x800000_0_0) shapeCasts_S1x800000_S800000

/-- The edges' targets: row 1 of the edge array. -/
def dstOf (e : (⟨S2x800000, .i32⟩ : BufTy).Contents (Elt Ideal)) : (⟨S800000, .i32⟩ : BufTy).Contents (Elt Ideal) :=
  shapeCast S800000 (extractStridedSlice S1x800000 ![1, 0] e slices_S2x800000_S1x800000_1_0) shapeCasts_S1x800000_S800000

/-- A negative source counted from the end. -/
def wrapped (s : (⟨S800000, .i32⟩ : BufTy).Contents (Elt Ideal)) : (⟨S800000, .i32⟩ : BufTy).Contents (Elt Ideal) :=
  select (cmpi .slt s (broadcastInDim S800000 ![] bcast_S_S800000 (constantI S_ 32 0#32)))
    (addi s (broadcastInDim S800000 ![] bcast_S_S800000 (constantI S_ 32 50000#32))) s

/-- Rows gathered along the sources and summed into the targets, 256 columns. -/
def aggregate256 (H : FVec Ideal S50000x256 .bf16) (s d : (⟨S800000, .i32⟩ : BufTy).Contents (Elt Ideal)) : FVec Ideal S50000x256 .f32 :=
  Host.scatterAdd scatter_S50000x256_S800000x1_S800000x256_1_0_0_1
    (broadcastInDim S50000x256 ![] bcast_S_S50000x256 (constant (F := Ideal) S_ .f32 0x00000000#32))
    (broadcastInDim S800000x1 ![0] bcast_S800000_S800000x1_0 d)
    (extf .f32 (Host.gather gather_S50000x256_S800000x1_S800000x256_1_0_n_n_0_1_1256 H
      (broadcastInDim S800000x1 ![0] bcast_S800000_S800000x1_0 (wrapped s))) bitsLt_bf16_f32)

/-- The same, 128 columns. -/
def aggregate128 (H : FVec Ideal S50000x128 .bf16) (s d : (⟨S800000, .i32⟩ : BufTy).Contents (Elt Ideal)) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (extf .f32 (Host.gather gather_S50000x128_S800000x1_S800000x128_1_0_n_n_0_1_1128 H
      (broadcastInDim S800000x1 ![0] bcast_S800000_S800000x1_0 (wrapped s))) bitsLt_bf16_f32)

/-- The column means from the column sums. -/
def meanOf (S1 : FVec Ideal S1x256 .f32) : FVec Ideal S1x256 .f32 :=
  Host.divf S1 (broadcastInDim S1x256 ![] bcast_S_S1x256 (constant (F := Ideal) S_ .f32 0x47435000#32))

/-- The inverse standard deviations from the column sums and the column sums of squares. -/
def invstdOf (S1 S2 : FVec Ideal S1x256 .f32) : FVec Ideal S1x256 .f32 :=
  Host.rsqrt (addf (maximumf (subf (Host.divf S2 (broadcastInDim S1x256 ![] bcast_S_S1x256 (constant (F := Ideal) S_ .f32 0x47435000#32)))
      (mulf (meanOf S1) (meanOf S1)))
    (broadcastInDim S1x256 ![] bcast_S_S1x256 (constant (F := Ideal) S_ .f32 0x00000000#32)))
    (broadcastInDim S1x256 ![] bcast_S_S1x256 (constant (F := Ideal) S_ .f32 0x3727C5AC#32)))

/-- A vector as a one-row array. -/
def row256 (b : FVec Ideal S256 .f32) : FVec Ideal S1x256 .f32 := shapeCast S1x256 b shapeCasts_S256_S1x256
def row128 (b : FVec Ideal S128 .f32) : FVec Ideal S1x128 .f32 := shapeCast S1x128 b shapeCasts_S128_S1x128

/-- The kernel's result as one function of the eight argument arrays. -/
def kernelValue (x : FVec Ideal S50000x512 .f32) (e : (⟨S2x800000, .i32⟩ : BufTy).Contents (Elt Ideal)) (w1 : FVec Ideal S512x256 .f32) (b1 g be : FVec Ideal S256 .f32)
    (w2 : FVec Ideal S256x128 .f32) (b2 : FVec Ideal S128 .f32) : FVec Ideal S50000x128 .f32 :=
  rowNormalized
    (aggregate128
      (matProd2
        (normRelu (aggregate256 (matProd1 x w1) (srcOf e) (dstOf e)) (row256 b1)
          (meanOf (colSums (aggregate256 (matProd1 x w1) (srcOf e) (dstOf e)) (row256 b1)))
          (invstdOf (colSums (aggregate256 (matProd1 x w1) (srcOf e) (dstOf e)) (row256 b1))
            (colSumSqs (aggregate256 (matProd1 x w1) (srcOf e) (dstOf e)) (row256 b1)))
          (row256 g) (row256 be))
        w2)
      (srcOf e) (dstOf e))
    (row128 b2)

variable (m : (ℓ : Loc nD τ sig) → Buf (Elt Ideal) ℓ) (ρ : Dev nD → PrngReg) (c : Dev nD)

/-! ## Boundary 1: after the first stretch -/

theorem W1_keeps (b : Ref sig .tc) (h0 : b ≠ main_v0) (h1 : b ≠ main_v1) (h2 : b ≠ main_v2) (h3 : b ≠ main_v3) :
    W1 m ρ c (Proc.devRef .tc b) = m ((c : Thread nD τ).loc b) :=
  (StableHlo.after_of_forall_not_mem (b := Proc.devRef .tc b) hostOps0 (W0 m ρ c) (List.forall_iff_forall_mem.mp (by
      simp only [hostOps0, List.Forall, StableHlo.unary_writes, StableHlo.reshape_writes, Finset.mem_singleton]
      exact ⟨StableHlo.devRef_ne_of_ne h0, StableHlo.devRef_ne_of_ne h1, StableHlo.devRef_ne_of_ne h2, StableHlo.devRef_ne_of_ne h3⟩))).trans rfl

theorem W1_v1 : W1 m ρ c (Proc.devRef .tc main_v1) = srcOf (m ((c : Thread nD τ).loc main_arg1)) := by
  show StableHlo.after hostOps0 (W0 m ρ c) (Proc.devRef .tc main_v1) = _
  after_results
  rfl

theorem W1_v3 : W1 m ρ c (Proc.devRef .tc main_v3) = dstOf (m ((c : Thread nD τ).loc main_arg1)) := by
  show StableHlo.after hostOps0 (W0 m ρ c) (Proc.devRef .tc main_v3) = _
  after_results
  rfl

/-! ## Boundary 2: after region 0 -/

theorem W2_v4 : W2 m ρ c (Proc.devRef .tc main_v4)
    = matProd1 (m ((c : Thread nD τ).loc main_arg0)) (m ((c : Thread nD τ).loc main_arg2)) :=
  (W2_arr m ρ c 2).trans ((region0_value (V1 m ρ) c).trans
    (congrArg₂ matProd1 (W1_keeps m ρ c main_arg0 (by decide) (by decide) (by decide) (by decide))
      (W1_keeps m ρ c main_arg2 (by decide) (by decide) (by decide) (by decide))))

theorem W2_v1 : W2 m ρ c (Proc.devRef .tc main_v1) = srcOf (m ((c : Thread nD τ).loc main_arg1)) :=
  (W2_of_ne m ρ c main_v1 (by decide)).trans (W1_v1 m ρ c)
theorem W2_v3 : W2 m ρ c (Proc.devRef .tc main_v3) = dstOf (m ((c : Thread nD τ).loc main_arg1)) :=
  (W2_of_ne m ρ c main_v3 (by decide)).trans (W1_v3 m ρ c)
theorem W2_arg (b : Ref sig .tc) (hb : ∀ w, Pipeline.arrRef spec0 w ≠ b) (h0 : b ≠ main_v0) (h1 : b ≠ main_v1) (h2 : b ≠ main_v2) (h3 : b ≠ main_v3) :
    W2 m ρ c (Proc.devRef .tc b) = m ((c : Thread nD τ).loc b) :=
  (W2_of_ne m ρ c b hb).trans (W1_keeps m ρ c b h0 h1 h2 h3)

/-! ## Boundary 3: after the second stretch -/

theorem W3_v15 : W3 m ρ c (Proc.devRef .tc main_v15)
    = aggregate256 (matProd1 (m ((c : Thread nD τ).loc main_arg0)) (m ((c : Thread nD τ).loc main_arg2)))
        (srcOf (m ((c : Thread nD τ).loc main_arg1))) (dstOf (m ((c : Thread nD τ).loc main_arg1))) := by
  rw [← W2_v4 m ρ c, ← W2_v1 m ρ c, ← W2_v3 m ρ c]
  show StableHlo.after hostOps1 (W2 m ρ c) (Proc.devRef .tc main_v15) = _
  after_results
  rfl

theorem W3_v16 : W3 m ρ c (Proc.devRef .tc main_v16) = row256 (m ((c : Thread nD τ).loc main_arg3)) := by
  rw [← W2_arg m ρ c main_arg3 (by decide) (by decide) (by decide) (by decide) (by decide)]
  show StableHlo.after hostOps1 (W2 m ρ c) (Proc.devRef .tc main_v16) = _
  after_results
  rfl

theorem W3_v1 : W3 m ρ c (Proc.devRef .tc main_v1) = srcOf (m ((c : Thread nD τ).loc main_arg1)) :=
  (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_v1 m ρ c)
theorem W3_v3 : W3 m ρ c (Proc.devRef .tc main_v3) = dstOf (m ((c : Thread nD τ).loc main_arg1)) :=
  (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_v3 m ρ c)
theorem W3_arg4 : W3 m ρ c (Proc.devRef .tc main_arg4) = m ((c : Thread nD τ).loc main_arg4) :=
  (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arg m ρ c main_arg4 (by decide) (by decide) (by decide) (by decide) (by decide))
theorem W3_arg5 : W3 m ρ c (Proc.devRef .tc main_arg5) = m ((c : Thread nD τ).loc main_arg5) :=
  (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arg m ρ c main_arg5 (by decide) (by decide) (by decide) (by decide) (by decide))
theorem W3_arg6 : W3 m ρ c (Proc.devRef .tc main_arg6) = m ((c : Thread nD τ).loc main_arg6) :=
  (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arg m ρ c main_arg6 (by decide) (by decide) (by decide) (by decide) (by decide))
theorem W3_arg7 : W3 m ρ c (Proc.devRef .tc main_arg7) = m ((c : Thread nD τ).loc main_arg7) :=
  (StableHlo.after_of_forall_not_mem _ _ (List.forall_iff_forall_mem.mp (by
      simp only [hostOps1, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W2_arg m ρ c main_arg7 (by decide) (by decide) (by decide) (by decide) (by decide))

/-! ## Boundary 4: after region 1 -/

/-- The aggregated array the statistics are taken of. -/
abbrev agg1 : FVec Ideal S50000x256 .f32 :=
  aggregate256 (matProd1 (m ((c : Thread nD τ).loc main_arg0)) (m ((c : Thread nD τ).loc main_arg2)))
    (srcOf (m ((c : Thread nD τ).loc main_arg1))) (dstOf (m ((c : Thread nD τ).loc main_arg1)))

theorem W4_v17_0 : W4 m ρ c (Proc.devRef .tc main_v17_0) = colSums (agg1 m c) (row256 (m ((c : Thread nD τ).loc main_arg3))) :=
  (W4_arr m ρ c 2).trans ((region1_sums (V3 m ρ) c).trans (congrArg₂ colSums (W3_v15 m ρ c) (W3_v16 m ρ c)))
theorem W4_v17_1 : W4 m ρ c (Proc.devRef .tc main_v17_1) = colSumSqs (agg1 m c) (row256 (m ((c : Thread nD τ).loc main_arg3))) :=
  (W4_arr m ρ c 3).trans ((region1_squares (V3 m ρ) c).trans (congrArg₂ colSumSqs (W3_v15 m ρ c) (W3_v16 m ρ c)))
theorem W4_v15 : W4 m ρ c (Proc.devRef .tc main_v15) = agg1 m c :=
  ((W4_arr m ρ c 0).trans (((dat1 (V3 m ρ) c).arrAt_in 0 rfl _).trans (A_eq1 (V3 m ρ) c 0))).trans (W3_v15 m ρ c)
theorem W4_v16 : W4 m ρ c (Proc.devRef .tc main_v16) = row256 (m ((c : Thread nD τ).loc main_arg3)) :=
  ((W4_arr m ρ c 1).trans (((dat1 (V3 m ρ) c).arrAt_in 1 rfl _).trans (A_eq1 (V3 m ρ) c 1))).trans (W3_v16 m ρ c)
theorem W4_v1 : W4 m ρ c (Proc.devRef .tc main_v1) = srcOf (m ((c : Thread nD τ).loc main_arg1)) :=
  (W4_of_ne m ρ c main_v1 (by decide)).trans (W3_v1 m ρ c)
theorem W4_v3 : W4 m ρ c (Proc.devRef .tc main_v3) = dstOf (m ((c : Thread nD τ).loc main_arg1)) :=
  (W4_of_ne m ρ c main_v3 (by decide)).trans (W3_v3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)

/-! ## Boundary 5: after the third stretch -/

abbrev sums1 : FVec Ideal S1x256 .f32 := colSums (agg1 m c) (row256 (m ((c : Thread nD τ).loc main_arg3)))
abbrev sqs1 : FVec Ideal S1x256 .f32 := colSumSqs (agg1 m c) (row256 (m ((c : Thread nD τ).loc main_arg3)))

theorem W5_v19 : W5 m ρ c (Proc.devRef .tc main_v19) = meanOf (sums1 m c) := by
  rw [show sums1 m c = W4 m ρ c (Proc.devRef .tc main_v17_0) from (W4_v17_0 m ρ c).symm]
  show StableHlo.after hostOps2 (W4 m ρ c) (Proc.devRef .tc main_v19) = _
  after_results
  rfl

theorem W5_v28 : W5 m ρ c (Proc.devRef .tc main_v28) = invstdOf (sums1 m c) (sqs1 m c) := by
  rw [show sums1 m c = W4 m ρ c (Proc.devRef .tc main_v17_0) from (W4_v17_0 m ρ c).symm,
    show sqs1 m c = W4 m ρ c (Proc.devRef .tc main_v17_1) from (W4_v17_1 m ρ c).symm]
  show StableHlo.after hostOps2 (W4 m ρ c) (Proc.devRef .tc main_v28) = _
  after_results
  rfl

theorem W5_v29 : W5 m ρ c (Proc.devRef .tc main_v29) = row256 (m ((c : Thread nD τ).loc main_arg4)) := by
  rw [← W4_arg4 m ρ c]
  show StableHlo.after hostOps2 (W4 m ρ c) (Proc.devRef .tc main_v29) = _
  after_results
  rfl

theorem W5_v30 : W5 m ρ c (Proc.devRef .tc main_v30) = row256 (m ((c : Thread nD τ).loc main_arg5)) := by
  rw [← W4_arg5 m ρ c]
  show StableHlo.after hostOps2 (W4 m ρ c) (Proc.devRef .tc main_v30) = _
  after_results
  rfl

theorem W5_v15 : W5 m ρ c (Proc.devRef .tc main_v15) = agg1 m c :=
  (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_v15 m ρ c)
theorem W5_v16 : W5 m ρ c (Proc.devRef .tc main_v16) = row256 (m ((c : Thread nD τ).loc main_arg3)) :=
  (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_v16 m ρ c)
theorem W5_arg6 : W5 m ρ c (Proc.devRef .tc main_arg6) = m ((c : Thread nD τ).loc main_arg6) :=
  (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_arg6 m ρ c)
theorem W5_arg7 : W5 m ρ c (Proc.devRef .tc main_arg7) = m ((c : Thread nD τ).loc main_arg7) :=
  (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_arg7 m ρ c)
theorem W5_v1 : W5 m ρ c (Proc.devRef .tc main_v1) = srcOf (m ((c : Thread nD τ).loc main_arg1)) :=
  (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_v1 m ρ c)
theorem W5_v3 : W5 m ρ c (Proc.devRef .tc main_v3) = dstOf (m ((c : Thread nD τ).loc main_arg1)) :=
  (StableHlo.after_of_forall_not_mem _ _ (List.forall_iff_forall_mem.mp (by
      simp only [hostOps2, List.Forall, StableHlo.nullary_writes, StableHlo.unary_writes, StableHlo.binary_writes, StableHlo.ternary_writes, StableHlo.reshape_writes, Finset.mem_singleton]
      repeat' apply And.intro
      all_goals exact StableHlo.devRef_ne_of_ne (by decide)))).trans (W4_v3 m ρ c)

/-! ## Boundary 6: after region 2 -/

/-- The second layer's product, before aggregation. -/
abbrev hidden2 : FVec Ideal S50000x128 .f32 :=
  matProd2 (normRelu (agg1 m c) (row256 (m ((c : Thread nD τ).loc main_arg3))) (meanOf (sums1 m c)) (invstdOf (sums1 m c) (sqs1 m c))
    (row256 (m ((c : Thread nD τ).loc main_arg4))) (row256 (m ((c : Thread nD τ).loc main_arg5)))) (m ((c : Thread nD τ).loc main_arg6))

theorem W6_v31 : W6 m ρ c (Proc.devRef .tc main_v31) = hidden2 m c :=
  (W6_arr m ρ c 7).trans ((region2_value (V5 m ρ) c).trans (by
    show matProd2 (normRelu (W5 m ρ c (Proc.devRef .tc main_v15)) (W5 m ρ c (Proc.devRef .tc main_v16)) (W5 m ρ c (Proc.devRef .tc main_v19))
      (W5 m ρ c (Proc.devRef .tc main_v28)) (W5 m ρ c (Proc.devRef .tc main_v29)) (W5 m ρ c (Proc.devRef .tc main_v30))) (W5 m ρ c (Proc.devRef .tc main_arg6)) = _
    rw [W5_v15 m ρ c, W5_v16 m ρ c, W5_v19 m ρ c, W5_v28 m ρ c, W5_v29 m ρ c, W5_v30 m ρ c, W5_arg6 m ρ c]))

theorem W6_v1 : W6 m ρ c (Proc.devRef .tc main_v1) = srcOf (m ((c : Thread nD τ).loc main_arg1)) :=
  (W6_of_ne m ρ c main_v1 (by decide)).trans (W5_v1 m ρ c)
theorem W6_v3 : W6 m ρ c (Proc.devRef .tc main_v3) = dstOf (m ((c : Thread nD τ).loc main_arg1)) :=
  (W6_of_ne m ρ c main_v3 (by decide)).trans (W5_v3 m ρ c)
theorem W6_arg7 : W6 m ρ c (Proc.devRef .tc main_arg7) = m ((c : Thread nD τ).loc main_arg7) :=
  (W6_of_ne m ρ c main_arg7 (by decide)).trans (W5_arg7 m ρ c)

/-! ## Boundary 7: after the fourth stretch -/

theorem W7_v42 : W7 m ρ c (Proc.devRef .tc main_v42)
    = aggregate128 (hidden2 m c) (srcOf (m ((c : Thread nD τ).loc main_arg1))) (dstOf (m ((c : Thread nD τ).loc main_arg1))) := by
  rw [← W6_v31 m ρ c, ← W6_v1 m ρ c, ← W6_v3 m ρ c]
  show StableHlo.after hostOps3 (W6 m ρ c) (Proc.devRef .tc main_v42) = _
  after_results
  rfl

theorem W7_v43 : W7 m ρ c (Proc.devRef .tc main_v43) = row128 (m ((c : Thread nD τ).loc main_arg7)) := by
  rw [← W6_arg7 m ρ c]
  show StableHlo.after hostOps3 (W6 m ρ c) (Proc.devRef .tc main_v43) = _
  after_results
  rfl

/-! ## Boundary 8: after region 3 -/

/-- The result array after the run is the kernel's function of the argument arrays. -/
theorem W8_v44 : W8 m ρ c (Proc.devRef .tc main_v44)
    = kernelValue (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W8_arr m ρ c 2).trans ((region3_value (V7 m ρ) c).trans (congrArg₂ rowNormalized (W7_v42 m ρ c) (W7_v43 m ρ c)))

/-- The kernel's run: it ends with the result array at that function of the arguments, the arguments as launched. -/
theorem run : θ_run defs (onTc (τ := τ) (main (F := Ideal))) ⟨m, fun _ => 0, ρ⟩ (fun r => ∀ c : Dev nD,
      r.2.mem ((c.tc : Thread nD τ).loc main_v44)
        = kernelValue (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W8_v44 m ρ c), (h c).2⟩) (Cert.KernelIdeal.Run.run_result (F := Ideal) m ρ)

end Cert.KernelIdeal.Chain

end
-- ==== Proof.BNAlgebra.lean ====
/-
  The algebra behind the batch-norm statistics.

  For a column of REAL numbers h_1 … h_N with mean μ = (Σ h)/N, the mean of the squared deviations equals the
  mean of the squares minus the square of the mean,
      (Σ (h_n − μ)²)/N = (Σ h_n²)/N − μ²,
  and it is a mean of squares, hence non-negative, so clamping the right-hand side at 0 changes nothing. On the
  extended reals the identity needs the column to be real (with an infinite entry one side is +∞ and the other
  is −∞ clamped to 0), so the facts that sums, products and differences of reals are reals are collected
  here too.
-/
import Idealize.ShloMosaic.PureOps.Ideal
import Idealize.ShloMosaic.Lib.ValueIdx

noncomputable section

namespace Cert.BNAlgebra

open Idealize.ShloMosaic Idealize.ShloMosaic.ValueIdx

/-! ## Reals inside the extended reals -/

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is a real. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-! ## The literals -/

/-- The divisor 50000.0 denotes the real 50000. -/
theorem ofBits_50000 : Ideal.ofBits .f32 0x47435000#32 = ((50000 : ℝ) : EReal) := by
  simp [Ideal.ofBits, Ideal.ieee, -EReal.coe_mul]; norm_num

/-- +0.0 denotes 0. -/
theorem ofBits_zero : Ideal.ofBits .f32 0x00000000#32 = 0 := by
  simp [Ideal.ofBits, Ideal.ieee]

/-! ## The variance identity -/

/-- Over the reals: the mean squared deviation is the mean square minus the squared mean, clamped at 0 or not. -/
theorem var_real (n : ℕ) (hn : (n : ℝ) ≠ 0) (r : Fin n → ℝ) (μ : ℝ) (hμ : μ = (∑ i, r i) / n) :
    (∑ i, (r i - μ) * (r i - μ)) / n = max ((∑ i, r i * r i) / n - μ * μ) 0 := by
  have hs : ∑ i, r i = μ * n := by rw [hμ]; field_simp
  have h1 : ∑ i, (r i - μ) * (r i - μ) = (∑ i, r i * r i) - 2 * μ * (∑ i, r i) + n * (μ * μ) := by
    have : ∀ i, (r i - μ) * (r i - μ) = r i * r i - 2 * μ * r i + μ * μ := fun i => by ring
    simp only [this, Finset.sum_add_distrib, Finset.sum_sub_distrib, ← Finset.mul_sum, Finset.sum_const,
      Finset.card_univ, Fintype.card_fin, nsmul_eq_mul]
    ring
  have h2 : (∑ i, (r i - μ) * (r i - μ)) / n = (∑ i, r i * r i) / n - μ * μ := by
    rw [h1, hs]; field_simp; ring
  have hnn : 0 ≤ (∑ i, (r i - μ) * (r i - μ)) / n :=
    div_nonneg (Finset.sum_nonneg fun i _ => mul_self_nonneg _) (Nat.cast_nonneg n)
  rw [← h2, max_eq_left hnn]

/-- The column mean of a [50000, 256] array: the column's sum divided by 50000.0. -/
def colMean (H : (⟨2, ![50000, 256]⟩ : Shape).Idx → EReal) (j : Fin 256) : EReal :=
  Ideal.div (∑ n : Fin 50000, H (ix2 n j)) (Ideal.ofBits .f32 0x47435000#32)

/-- The two-pass variance: the mean of the squared deviations from the column mean. -/
def varTwoPass (H : (⟨2, ![50000, 256]⟩ : Shape).Idx → EReal) (j : Fin 256) : EReal :=
  Ideal.div (∑ n : Fin 50000, (H (ix2 n j) - colMean H j) * (H (ix2 n j) - colMean H j)) (Ideal.ofBits .f32 0x47435000#32)

/-- The one-pass variance: the mean of the squares minus the squared mean, clamped at +0.0. -/
def varOnePass (H : (⟨2, ![50000, 256]⟩ : Shape).Idx → EReal) (j : Fin 256) : EReal :=
  max (Ideal.div (∑ n : Fin 50000, H (ix2 n j) * H (ix2 n j)) (Ideal.ofBits .f32 0x47435000#32) - colMean H j * colMean H j)
    (Ideal.ofBits .f32 0x00000000#32)

/-- On an array of reals the two variance estimates agree. -/
theorem var_eq (H : (⟨2, ![50000, 256]⟩ : Shape).Idx → EReal) (hH : ∀ i, IsReal (H i)) (j : Fin 256) :
    varTwoPass H j = varOnePass H j := by
  choose r hr using hH
  have h5 : ((50000 : ℕ) : ℝ) ≠ 0 := by norm_num
  have hdiv : ∀ a : ℝ, Ideal.div (a : EReal) (Ideal.ofBits .f32 0x47435000#32) = ((a / (50000 : ℕ) : ℝ) : EReal) := fun a => by
    rw [ofBits_50000, Ideal.div_coe (by norm_num), ← EReal.coe_mul]
    congr 1; push_cast; ring
  have hmean : colMean H j = (((∑ n : Fin 50000, r (ix2 n j)) / (50000 : ℕ) : ℝ) : EReal) := by
    unfold colMean
    simp only [hr]
    rw [← coe_sum, hdiv]
  unfold varTwoPass varOnePass
  rw [hmean, ofBits_zero]
  simp only [hr]
  simp only [← EReal.coe_sub, ← EReal.coe_mul, ← coe_sum, hdiv]
  rw [show (0 : EReal) = ((0 : ℝ) : EReal) from rfl, ← EReal.coe_strictMono.monotone.map_max]
  exact congrArg _ (var_real 50000 h5 (fun n => r (ix2 n j)) _ rfl)

end Cert.BNAlgebra

end
-- ==== Proof.Finite.lean ====
/-
  From the precondition to real entries.

  The precondition is a conjunction of seven tests, one per float argument: every entry's absolute value is
  below +∞. An extended real whose absolute value is below +∞ is a real number (the absolute value of either
  infinity is +∞). Only three of the seven are needed: the feature matrix, the first weight matrix and the first
  bias, the arrays the batch statistics are taken of.
-/
import proofs.«101625_j39247411151462_2_alg».proof.Pre_finite_inputs
import proofs.«101625_j39247411151462_2_alg».proof.Proof.BNAlgebra
import Idealize.ShloMosaic.Lib.ReduceAll
import Idealize.ShloMosaic.Lib.Affine
import Idealize.ShloMosaic.Lib.Pipeline.Value
import Idealize.ShloMosaic.PureOps.Ideal.Laws

noncomputable section

namespace Cert.Finite

open Cert.Pre_finite_inputs Cert.BNAlgebra
open Idealize.ShloMosaic Idealize.ShloMosaic.ValueIdx

instance : Subsingleton S_.Idx := ⟨fun a b => funext fun d => d.elim0⟩

/-- A scalar broadcast to any shape reads the scalar everywhere. -/
theorem bcast_scalar {α : Type} {t : Shape} (h : (⟨0, ![]⟩ : Shape).BroadcastsInDim t ![]) (v : (⟨0, ![]⟩ : Shape).Idx → α) (i : t.Idx) :
    broadcastInDim t ![] h v i = v ix0 :=
  broadcastInDim_apply _ h v i ix0 (fun a => a.elim0)

/-- The exponent-all-ones, fraction-zero pattern denotes +∞. -/
theorem ofBits_inf : Ideal.ofBits .f32 0x7F800000#32 = ⊤ := by
  simp [Ideal.ofBits, Ideal.ieee]

/-- An extended real whose absolute value compares below +∞ is a real. -/
theorem isReal_of_abs_lt (x : EReal) (h : Ideal.cmp .olt (max x (-x)) (Ideal.ofBits .f32 0x7F800000#32) = 1#1) : IsReal x := by
  rw [ofBits_inf] at h
  have hlt : max x (-x) < ⊤ := by
    by_contra hc
    unfold Ideal.cmp at h
    simp [hc] at h
  induction x using EReal.rec with
  | bot => simp at hlt
  | top => simp at hlt
  | coe r => exact ⟨r, rfl⟩

/-- One test of the conjunction: all entries' absolute values below +∞ gives all entries real. -/
theorem real_of_test {s : Shape} (a : FVec Ideal s .f32) (hb : (⟨0, ![]⟩ : Shape).BroadcastsInDim s ![]) (i : s.Idx)
    (h : cmpf .olt (Host.absf a) (broadcastInDim s ![] hb (constant (F := Ideal) S_ .f32 0x7F800000#32)) i = 1#1) : IsReal (a i) := by
  rw [cmpf_apply, bcast_scalar] at h
  exact isReal_of_abs_lt (a i) h

variable [Cert.Pre_finite_inputs.Facts]
open Cert.Pre_finite_inputs.Facts

/-- Under the precondition the feature matrix, the first weights and the first bias are arrays of reals. -/
theorem real_of_pre (a0 : FVec Ideal S50000x512 .f32) (a1 : IVec S2x800000 32) (a2 : FVec Ideal S512x256 .f32) (a3 a4 a5 : FVec Ideal S256 .f32)
    (a6 : FVec Ideal S256x128 .f32) (a7 : FVec Ideal S128 .f32)
    (h : fn (F := Ideal) a0 a1 a2 a3 a4 a5 a6 a7 = fun _ => 1#1) :
    (∀ i, IsReal (a0 i)) ∧ (∀ i, IsReal (a2 i)) ∧ (∀ i, IsReal (a3 i)) := by
  have h0 := congrFun h ix0
  dsimp only [fn, fn_part1] at h0
  obtain ⟨h28, -⟩ := IntOp.andi_eq_one.mp h0
  obtain ⟨h23, -⟩ := IntOp.andi_eq_one.mp h28
  obtain ⟨h18, -⟩ := IntOp.andi_eq_one.mp h23
  obtain ⟨h13, -⟩ := IntOp.andi_eq_one.mp h18
  obtain ⟨h8, h12⟩ := IntOp.andi_eq_one.mp h13
  obtain ⟨h3, h7⟩ := IntOp.andi_eq_one.mp h8
  refine ⟨fun i => ?_, fun i => ?_, fun i => ?_⟩
  · exact real_of_test a0 bcast_S_S50000x512 i (Host.reduce_andi_all _ _ _ _ _ h3 i)
  · exact real_of_test a2 bcast_S_S512x256 i (Host.reduce_andi_all _ _ _ _ _ h7 i)
  · exact real_of_test a3 bcast_S_S256 i (Host.reduce_andi_all _ _ _ _ _ h12 i)

end Cert.Finite

end
-- ==== Proof.Bridge.lean ====
/-
  The reference's stages against the kernel's function.

  Stage by stage the two programs compute the same arrays: the first product (a host contraction against a sum
  over k), the aggregation along the edges (the same gather and the same accumulating scatter, applied to equal
  arrays), the column means (a sum over 50000 rows either way), the variance — where the reference averages
  squared deviations and the kernel subtracts the squared mean from the mean square and clamps at zero: equal
  because the biased array is an array of reals —, the normalised rectified array, the second product, the second
  aggregation, and the row normalisation (the reference's norm is the square root of the row's sum of squares).
-/
import proofs.«101625_j39247411151462_2_alg».proof.Proof.Chain
import proofs.«101625_j39247411151462_2_alg».proof.Proof.BNAlgebra
import proofs.«101625_j39247411151462_2_alg».proof.Proof.Finite
import proofs.«101625_j39247411151462_2_alg».proof.Proof.Gen.ReferenceIdeal.Read

set_option maxRecDepth 16384

noncomputable section

namespace Cert.Bridge

open Cert.ReferenceIdeal Cert.ReferenceIdeal.Read
open Cert.KernelIdeal.Chain Cert.KernelIdeal.Regions Cert.BNAlgebra Cert.Finite
open Idealize.ShloMosaic Idealize.ShloMosaic.ValueIdx

variable (x0 : (⟨S50000x512, .f32⟩ : BufTy).Contents (Elt Ideal)) (x1 : (⟨S2x800000, .i32⟩ : BufTy).Contents (Elt Ideal))
  (x2 : (⟨S512x256, .f32⟩ : BufTy).Contents (Elt Ideal)) (x3 x4 x5 : (⟨S256, .f32⟩ : BufTy).Contents (Elt Ideal))
  (x6 : (⟨S256x128, .f32⟩ : BufTy).Contents (Elt Ideal)) (x7 : (⟨S128, .f32⟩ : BufTy).Contents (Elt Ideal))

/-! ## Small readings -/

/-- A [50000, 256] array with a [1, 256] row added to every row. -/
def biased (A : S50000x256.Idx → EReal) (b : S1x256.Idx → EReal) : S50000x256.Idx → EReal :=
  fun i => A i + b (ix2 (0 : Fin 1) (i 1))

theorem row256_apply (b : (⟨S256, .f32⟩ : BufTy).Contents (Elt Ideal)) (j : Fin 256) : row256 b (ix2 (0 : Fin 1) j) = b (ix1 j) :=
  shapeCast_a_1a_apply b _ (0 : Fin 1) j
theorem row128_apply (b : (⟨S128, .f32⟩ : BufTy).Contents (Elt Ideal)) (j : Fin 128) : row128 b (ix2 (0 : Fin 1) j) = b (ix1 j) :=
  shapeCast_a_1a_apply b _ (0 : Fin 1) j

theorem hostDivf_apply {s : Shape} (a b : FVec Ideal s .f32) (i : s.Idx) : Host.divf a b i = Ideal.div (a i) (b i) := rfl
theorem hostRsqrt_apply {s : Shape} (a : FVec Ideal s .f32) (i : s.Idx) : Host.rsqrt a i = Ideal.rsqrt (a i) := rfl

theorem biased_apply (A : S50000x256.Idx → EReal) (b : S1x256.Idx → EReal) (n : Fin 50000) (j : Fin 256) :
    biased A b (ix2 n j) = A (ix2 n j) + b (ix2 (0 : Fin 1) j) := rfl

theorem rowNormalized_apply (A : S50000x128.Idx → EReal) (b : S1x128.Idx → EReal) (n : Fin 50000) (j : Fin 128) :
    rowNormalized A b (ix2 n j) = Ideal.div (A (ix2 n j) + b (ix2 (0 : Fin 1) j))
      (max (Ideal.sqrt (∑ q : Fin 128, (A (ix2 n q) + b (ix2 (0 : Fin 1) q)) * (A (ix2 n q) + b (ix2 (0 : Fin 1) q))))
        (Ideal.ofBits .f32 0x2B8CBCCC#32)) := rfl

/-- An accumulating scatter of reals into reals is real: each entry plus a finite sum of updates. -/
theorem scatterAdd_real {s si su : Shape} (d : ScatterDims s si su) {w : Nat} (x : s.Idx → EReal) (idx : IVec si w) (upd : su.Idx → EReal)
    (hx : ∀ i, IsReal (x i)) (hu : ∀ u, IsReal (upd u)) (i : s.Idx) : IsReal (Ideal.hostScatterAdd d x idx upd i) := by
  unfold Ideal.hostScatterAdd
  exact (hx i).add (isReal_sum _ _ fun u _ => hu u)

/-- The host's accumulating scatter of reals into reals is real. -/
theorem hostScatterAdd_real {s si su : Shape} {w : Nat} (d : ScatterDims s si su) (x : FVec Ideal s .f32) (idx : IVec si w)
    (upd : FVec Ideal su .f32) (hx : ∀ i, IsReal (x i)) (hu : ∀ u, IsReal (upd u)) (i : s.Idx) :
    IsReal (Host.scatterAdd d x idx upd i) :=
  scatterAdd_real d x idx upd hx hu i

/-- A gathered entry is an entry of the operand. -/
theorem gather_real {s si t : Shape} {w : Nat} {φ : FTy} (g : GatherDims s si t) (H : FVec Ideal s φ) (idx : IVec si w)
    (hH : ∀ i, IsReal (H i)) (u : t.Idx) : IsReal (Host.gather g H idx u) :=
  hH _

/-- A change of float format is the identity on extended reals. -/
theorem extf_real {s : Shape} (a : FVec Ideal s .bf16) (h : FTy.bf16.bits < FTy.f32.bits) (ha : ∀ i, IsReal (a i)) (u : s.Idx) :
    IsReal (extf .f32 a h u) :=
  ha u

/-! ## The first layer -/

theorem ref_v4 : val_main_v4 (F := Ideal) x0 x2 = matProd1 x0 x2 := by
  funext i
  rw [val_main_v4_apply]
  unfold matProd1
  refine Finset.sum_congr rfl fun k _ => ?_
  have hl : lidx_main_v4 i k = ix2 (i 0) k := funext fun a => Fin.ext (by match a with | ⟨0, _⟩ => rfl | ⟨1, _⟩ => rfl)
  have hr : ridx_main_v4 i k = ix2 k (i 1) := funext fun a => Fin.ext (by match a with | ⟨0, _⟩ => rfl | ⟨1, _⟩ => rfl)
  rw [hl, hr]
  try rfl

theorem ref_v14 : val_main_v14 (F := Ideal) x0 x1 x2 = (aggregate256 (matProd1 x0 x2) (srcOf x1) (dstOf x1)) := by
  rw [← ref_v4]
  rfl

theorem ref_v17 : val_main_v17 (F := Ideal) x0 x1 x2 x3 = (biased (aggregate256 (matProd1 x0 x2) (srcOf x1) (dstOf x1)) (row256 x3)) := by
  funext i
  obtain ⟨n, j, rfl⟩ : ∃ (n : Fin 50000) (j : Fin 256), i = ix2 n j := ⟨i 0, i 1, eq_ix2 i⟩
  rw [val_main_v17_apply, Ideal.addf_def, ref_v14, val_main_v16_apply, val_main_v15_apply]
  show _ = (aggregate256 (matProd1 x0 x2) (srcOf x1) (dstOf x1)) (ix2 n j) + row256 x3 (ix2 (0 : Fin 1) j)
  have hi : idx_main_v15 (idx_main_v16 (ix2 n j)) = ix1 j := funext fun a => Fin.ext (by match a with | ⟨0, _⟩ => rfl)
  rw [row256_apply, hi]

/-! ## The statistics -/

set_option maxRecDepth 400000 in
theorem ref_mean (j : Fin 256) : val_main_v20 (F := Ideal) x0 x1 x2 x3 (ix1 j) = colMean (biased (aggregate256 (matProd1 x0 x2) (srcOf x1) (dstOf x1)) (row256 x3)) j := by
  rw [val_main_v20_apply, Ideal.hostDivf_def, val_main_v18_apply, val_main_v19_apply, val_main_cst_1_apply, val_main_cst_2_apply]
  simp only [Ideal.ofBits_def]
  rw [ofBits_zero, zero_add, ref_v17]
  unfold colMean
  refine congrArg (fun s => Ideal.div s (Ideal.ofBits .f32 0x47435000#32)) ?_
  refine Finset.sum_congr rfl fun n _ => ?_
  have hi : idx_main_v18 (ix1 j) n = ix2 n j := funext fun a => Fin.ext (by match a with | ⟨0, _⟩ => rfl | ⟨1, _⟩ => rfl)
  rw [hi]

set_option maxRecDepth 400000 in
theorem ker_mean (j : Fin 256) : (meanOf (colSums (aggregate256 (matProd1 x0 x2) (srcOf x1) (dstOf x1)) (row256 x3))) (ix2 (0 : Fin 1) j) = colMean (biased (aggregate256 (matProd1 x0 x2) (srcOf x1) (dstOf x1)) (row256 x3)) j := by
  unfold meanOf
  rw [hostDivf_apply, bcast_scalar, constant_apply]
  unfold colMean colSums
  refine congrArg (fun s => Ideal.div s (Ideal.ofBits .f32 0x47435000#32)) ?_
  refine Finset.sum_congr rfl fun n _ => ?_
  rfl

set_option maxRecDepth 400000 in
theorem ref_var (j : Fin 256) : val_main_v27 (F := Ideal) x0 x1 x2 x3 (ix1 j) = varTwoPass (biased (aggregate256 (matProd1 x0 x2) (srcOf x1) (dstOf x1)) (row256 x3)) j := by
  rw [val_main_v27_apply, Ideal.hostDivf_def, val_main_v25_apply, val_main_v26_apply, val_main_cst_3_apply, val_main_cst_4_apply]
  simp only [Ideal.ofBits_def]
  rw [ofBits_zero, zero_add]
  unfold varTwoPass
  refine congrArg (fun s => Ideal.div s (Ideal.ofBits .f32 0x47435000#32)) ?_
  refine Finset.sum_congr rfl fun n _ => ?_
  rw [val_main_v24_apply, Ideal.mulf_def, val_main_v23_apply, Ideal.subf_def, val_main_v22_apply, val_main_v21_apply]
  have h21 : idx_main_v21 (idx_main_v22 (idx_main_v25 (ix1 j) n)) = ix1 j := funext fun a => Fin.ext (by match a with | ⟨0, _⟩ => rfl)
  have hi : idx_main_v25 (ix1 j) n = ix2 n j := funext fun a => Fin.ext (by match a with | ⟨0, _⟩ => rfl | ⟨1, _⟩ => rfl)
  rw [h21, ref_mean, ref_v17, hi]

set_option maxRecDepth 400000 in
theorem ker_var (j : Fin 256) :
    maximumf (subf (Host.divf (colSumSqs (aggregate256 (matProd1 x0 x2) (srcOf x1) (dstOf x1)) (row256 x3)) (broadcastInDim Cert.KernelIdeal.S1x256 ![] Cert.KernelIdeal.Gen.bcast_S_S1x256 (constant (F := Ideal) Cert.KernelIdeal.S_ .f32 0x47435000#32)))
        (mulf (meanOf (colSums (aggregate256 (matProd1 x0 x2) (srcOf x1) (dstOf x1)) (row256 x3))) (meanOf (colSums (aggregate256 (matProd1 x0 x2) (srcOf x1) (dstOf x1)) (row256 x3)))))
      (broadcastInDim Cert.KernelIdeal.S1x256 ![] Cert.KernelIdeal.Gen.bcast_S_S1x256 (constant (F := Ideal) Cert.KernelIdeal.S_ .f32 0x00000000#32)) (ix2 (0 : Fin 1) j)
      = varOnePass (biased (aggregate256 (matProd1 x0 x2) (srcOf x1) (dstOf x1)) (row256 x3)) j := by
  rw [maximumf_apply, subf_apply, mulf_apply, hostDivf_apply, bcast_scalar, bcast_scalar, constant_apply, constant_apply, ker_mean]
  unfold varOnePass colSumSqs
  refine congrArg (fun s => max (Ideal.div s (Ideal.ofBits .f32 0x47435000#32) - colMean (biased (aggregate256 (matProd1 x0 x2) (srcOf x1) (dstOf x1)) (row256 x3)) j * colMean (biased (aggregate256 (matProd1 x0 x2) (srcOf x1) (dstOf x1)) (row256 x3)) j) (Ideal.ofBits .f32 0x00000000#32)) ?_
  refine Finset.sum_congr rfl fun n _ => ?_
  rfl

theorem inv_eq (hreal : ∀ i, IsReal ((biased (aggregate256 (matProd1 x0 x2) (srcOf x1) (dstOf x1)) (row256 x3)) i)) (j : Fin 256) :
    val_main_v33 (F := Ideal) x0 x1 x2 x3 (ix1 j) = (invstdOf (colSums (aggregate256 (matProd1 x0 x2) (srcOf x1) (dstOf x1)) (row256 x3)) (colSumSqs (aggregate256 (matProd1 x0 x2) (srcOf x1) (dstOf x1)) (row256 x3))) (ix2 (0 : Fin 1) j) := by
  rw [val_main_v33_apply, Ideal.hostUnary_rsqrt_def, val_main_v32_apply, Ideal.addf_def, ref_var, val_main_v31_apply, val_main_cst_5_apply, Ideal.ofBits_def,
    var_eq (biased (aggregate256 (matProd1 x0 x2) (srcOf x1) (dstOf x1)) (row256 x3)) hreal j]
  unfold invstdOf
  rw [hostRsqrt_apply, addf_apply, ker_var, bcast_scalar, constant_apply]

/-! ## The second layer -/

theorem ref_v43 (hreal : ∀ i, IsReal ((biased (aggregate256 (matProd1 x0 x2) (srcOf x1) (dstOf x1)) (row256 x3)) i)) : val_main_v43 (F := Ideal) x0 x1 x2 x3 x4 x5 = (normRelu (aggregate256 (matProd1 x0 x2) (srcOf x1) (dstOf x1)) (row256 x3) (meanOf (colSums (aggregate256 (matProd1 x0 x2) (srcOf x1) (dstOf x1)) (row256 x3))) (invstdOf (colSums (aggregate256 (matProd1 x0 x2) (srcOf x1) (dstOf x1)) (row256 x3)) (colSumSqs (aggregate256 (matProd1 x0 x2) (srcOf x1) (dstOf x1)) (row256 x3))) (row256 x4) (row256 x5)) := by
  funext i
  obtain ⟨n, j, rfl⟩ : ∃ (n : Fin 50000) (j : Fin 256), i = ix2 n j := ⟨i 0, i 1, eq_ix2 i⟩
  rw [val_main_v43_apply, val_main_call0_v0_apply, val_main_call0_cst_apply, val_main_v42_apply, val_main_v41_apply, val_main_v40_apply,
    val_main_v39_apply, val_main_v38_apply, val_main_v37_apply, val_main_v36_apply, val_main_v35_apply, val_main_v34_apply,
    val_main_v30_apply, val_main_v29_apply, val_main_v28_apply, ref_v17]
  simp only [Ideal.maximumf_def, Ideal.addf_def, Ideal.mulf_def, Ideal.subf_def, Ideal.ofBits_def]
  have i1 : idx_main_v28 (idx_main_v29 (ix2 n j)) = ix1 j := funext fun a => Fin.ext (by match a with | ⟨0, _⟩ => rfl)
  have i2 : idx_main_v34 (idx_main_v35 (ix2 n j)) = ix1 j := funext fun a => Fin.ext (by match a with | ⟨0, _⟩ => rfl)
  have i3 : idx_main_v37 (idx_main_v38 (ix2 n j)) = ix1 j := funext fun a => Fin.ext (by match a with | ⟨0, _⟩ => rfl)
  have i4 : idx_main_v40 (idx_main_v41 (ix2 n j)) = ix1 j := funext fun a => Fin.ext (by match a with | ⟨0, _⟩ => rfl)
  rw [i1, i2, i3, i4, ref_mean, inv_eq x0 x1 x2 x3 hreal j, ← ker_mean, ← row256_apply x4 j, ← row256_apply x5 j]
  rfl

theorem ref_v44 (hreal : ∀ i, IsReal ((biased (aggregate256 (matProd1 x0 x2) (srcOf x1) (dstOf x1)) (row256 x3)) i)) : val_main_v44 (F := Ideal) x0 x1 x2 x3 x4 x5 x6 = (matProd2 (normRelu (aggregate256 (matProd1 x0 x2) (srcOf x1) (dstOf x1)) (row256 x3) (meanOf (colSums (aggregate256 (matProd1 x0 x2) (srcOf x1) (dstOf x1)) (row256 x3))) (invstdOf (colSums (aggregate256 (matProd1 x0 x2) (srcOf x1) (dstOf x1)) (row256 x3)) (colSumSqs (aggregate256 (matProd1 x0 x2) (srcOf x1) (dstOf x1)) (row256 x3))) (row256 x4) (row256 x5)) x6) := by
  funext i
  rw [val_main_v44_apply, ref_v43 x0 x1 x2 x3 x4 x5 hreal]
  unfold matProd2
  refine Finset.sum_congr rfl fun k _ => ?_
  have hl : lidx_main_v44 i k = ix2 (i 0) k := funext fun a => Fin.ext (by match a with | ⟨0, _⟩ => rfl | ⟨1, _⟩ => rfl)
  have hr : ridx_main_v44 i k = ix2 k (i 1) := funext fun a => Fin.ext (by match a with | ⟨0, _⟩ => rfl | ⟨1, _⟩ => rfl)
  rw [hl, hr]
  try rfl

theorem ref_v54 (hreal : ∀ i, IsReal ((biased (aggregate256 (matProd1 x0 x2) (srcOf x1) (dstOf x1)) (row256 x3)) i)) : val_main_v54 (F := Ideal) x0 x1 x2 x3 x4 x5 x6 = (aggregate128 (matProd2 (normRelu (aggregate256 (matProd1 x0 x2) (srcOf x1) (dstOf x1)) (row256 x3) (meanOf (colSums (aggregate256 (matProd1 x0 x2) (srcOf x1) (dstOf x1)) (row256 x3))) (invstdOf (colSums (aggregate256 (matProd1 x0 x2) (srcOf x1) (dstOf x1)) (row256 x3)) (colSumSqs (aggregate256 (matProd1 x0 x2) (srcOf x1) (dstOf x1)) (row256 x3))) (row256 x4) (row256 x5)) x6) (srcOf x1) (dstOf x1)) := by
  rw [← ref_v44 x0 x1 x2 x3 x4 x5 x6 hreal]
  rfl

theorem ref_v57 (hreal : ∀ i, IsReal ((biased (aggregate256 (matProd1 x0 x2) (srcOf x1) (dstOf x1)) (row256 x3)) i)) (n : Fin 50000) (q : Fin 128) :
    val_main_v57 (F := Ideal) x0 x1 x2 x3 x4 x5 x6 x7 (ix2 n q) = (aggregate128 (matProd2 (normRelu (aggregate256 (matProd1 x0 x2) (srcOf x1) (dstOf x1)) (row256 x3) (meanOf (colSums (aggregate256 (matProd1 x0 x2) (srcOf x1) (dstOf x1)) (row256 x3))) (invstdOf (colSums (aggregate256 (matProd1 x0 x2) (srcOf x1) (dstOf x1)) (row256 x3)) (colSumSqs (aggregate256 (matProd1 x0 x2) (srcOf x1) (dstOf x1)) (row256 x3))) (row256 x4) (row256 x5)) x6) (srcOf x1) (dstOf x1)) (ix2 n q) + row128 x7 (ix2 (0 : Fin 1) q) := by
  have hi : idx_main_v55 (idx_main_v56 (ix2 n q)) = ix1 q := funext fun a => Fin.ext (by match a with | ⟨0, _⟩ => rfl)
  rw [val_main_v57_apply, Ideal.addf_def, ref_v54 x0 x1 x2 x3 x4 x5 x6 hreal, val_main_v56_apply, val_main_v55_apply, row128_apply, hi]

/-! ## The results agree -/

/-- On arguments whose first three float arrays are real, the reference's result is the kernel's function. -/
theorem result_eq (hreal : ∀ i, IsReal ((biased (aggregate256 (matProd1 x0 x2) (srcOf x1) (dstOf x1)) (row256 x3)) i)) :
    val_main_v62 (F := Ideal) x0 x1 x2 x3 x4 x5 x6 x7 = kernelValue x0 x1 x2 x3 x4 x5 x6 x7 := by
  funext i
  obtain ⟨n, j, rfl⟩ : ∃ (n : Fin 50000) (j : Fin 128), i = ix2 n j := ⟨i 0, i 1, eq_ix2 i⟩
  rw [val_main_v62_apply, Ideal.hostDivf_def, val_main_v61_apply, val_main_v60_apply, Ideal.maximumf_def, val_main_v59_apply, val_main_cst_9_apply,
    val_main_v58_apply, Ideal.hostUnary_sqrt_def, val_main_call1_v2_apply, val_main_call1_v1_apply, val_main_call1_cst_apply]
  simp only [Ideal.ofBits_def]
  rw [ofBits_zero, zero_add, ref_v57 x0 x1 x2 x3 x4 x5 x6 x7 hreal n j]
  unfold kernelValue
  rw [rowNormalized_apply]
  refine congrArg (fun s => Ideal.div ((aggregate128 (matProd2 (normRelu (aggregate256 (matProd1 x0 x2) (srcOf x1) (dstOf x1)) (row256 x3) (meanOf (colSums (aggregate256 (matProd1 x0 x2) (srcOf x1) (dstOf x1)) (row256 x3))) (invstdOf (colSums (aggregate256 (matProd1 x0 x2) (srcOf x1) (dstOf x1)) (row256 x3)) (colSumSqs (aggregate256 (matProd1 x0 x2) (srcOf x1) (dstOf x1)) (row256 x3))) (row256 x4) (row256 x5)) x6) (srcOf x1) (dstOf x1)) (ix2 n j) + row128 x7 (ix2 (0 : Fin 1) j))
    (max (Ideal.sqrt s) (Ideal.ofBits .f32 0x2B8CBCCC#32))) ?_
  refine Finset.sum_congr rfl fun q _ => ?_
  rw [val_main_call1_v0_apply, Ideal.mulf_def]
  have hq : idx_main_call1_v1 (idx_main_call1_v2 (idx_main_v61 (ix2 n j))) q = ix2 n q := funext fun a => Fin.ext (by match a with | ⟨0, _⟩ => rfl | ⟨1, _⟩ => rfl)
  rw [hq, ref_v57 x0 x1 x2 x3 x4 x5 x6 x7 hreal n q]

/-! ## The biased array is real under the precondition -/

/-- With real features, weights and bias, the aggregated first product plus the bias is an array of reals:
    products and finite sums of reals are real, a gathered entry is an entry, and an accumulating scatter
    adds finitely many entries to zero. -/
theorem biased_real (h0 : ∀ i, IsReal (x0 i)) (h2 : ∀ i, IsReal (x2 i)) (h3 : ∀ i, IsReal (x3 i)) : ∀ i, IsReal ((biased (aggregate256 (matProd1 x0 x2) (srcOf x1) (dstOf x1)) (row256 x3)) i) := by
  intro i
  obtain ⟨n, j, rfl⟩ : ∃ (n : Fin 50000) (j : Fin 256), i = ix2 n j := ⟨i 0, i 1, eq_ix2 i⟩
  have hP : ∀ i, IsReal (matProd1 x0 x2 i) := fun i =>
    isReal_sum _ _ fun k _ => (h0 _).mul (h2 _)
  rw [biased_apply, row256_apply]
  refine IsReal.add ?_ (h3 _)
  unfold aggregate256
  refine hostScatterAdd_real _ _ _ _ (fun i => ?_) (fun u => ?_) _
  · rw [bcast_scalar, constant_apply, ofBits_zero]; exact isReal_zero
  · exact extf_real _ _ (fun v => gather_real (φ := .bf16) _ _ _ hP v) u

end Cert.Bridge

end
-- ==== Proof.lean ====
/-
  A two-layer graph convolution with batch normalisation, against its plain array reference, on extended reals.

  Both programs compute, from features X, an edge list (sources, targets), weights W1, W2, biases b1, b2 and the
  normalisation's scale and shift: A1 = the rows of X·W1 gathered at the sources and summed into the targets;
  H = A1 + b1; the column mean μ and a column variance v of H; N = max(((H − μ)·(v + ε)^(−1/2))·scale + shift, 0);
  A2 = the rows of N·W2 gathered and summed the same way; and each row of A2 + b2 divided by its Euclidean norm,
  clamped below. The kernel forms the two products, the column sums and the row normalisation in four pipelined
  regions, 2000 rows at a time, and takes v = max(mean(H²) − μ², 0); the reference takes v = mean((H − μ)²).
  On reals these agree — the mean squared deviation is the mean square minus the squared mean, and it is
  non-negative — and under the precondition H is an array of reals: finite sums of products of finite numbers,
  a gathered entry being an entry and an accumulating scatter adding finitely many entries to zero. Everything
  else is the same operation on both sides, or a sum regrouped (blocks of 2000 rows; a contraction as a sum).

  The three frame claims are the generated frames (the reference's is its generated run with the result
  dropped); the idealization rewrote nothing, so that claim is trivial; the value claim joins the kernel's run,
  read back through its regions, to the reference's run, read one operation at a time.
-/
import proofs.«101625_j39247411151462_2_alg».proof.Defs
import proofs.«101625_j39247411151462_2_alg».proof.Proof.Gen.Kernel
import proofs.«101625_j39247411151462_2_alg».proof.Proof.Gen.Kernel.Skeleton
import proofs.«101625_j39247411151462_2_alg».proof.Proof.Gen.Kernel.Launch
import proofs.«101625_j39247411151462_2_alg».proof.Proof.Gen.Kernel.Points
import proofs.«101625_j39247411151462_2_alg».proof.Proof.Gen.Kernel.Frame
import proofs.«101625_j39247411151462_2_alg».proof.Proof.Gen.KernelIdeal
import proofs.«101625_j39247411151462_2_alg».proof.Proof.Gen.KernelIdeal.Skeleton
import proofs.«101625_j39247411151462_2_alg».proof.Proof.Gen.KernelIdeal.Launch
import proofs.«101625_j39247411151462_2_alg».proof.Proof.Gen.KernelIdeal.Points
import proofs.«101625_j39247411151462_2_alg».proof.Proof.Gen.KernelIdeal.Frame
import proofs.«101625_j39247411151462_2_alg».proof.Proof.Gen.ReferenceIdeal
import proofs.«101625_j39247411151462_2_alg».proof.Proof.Gen.Pre_finite_inputs
import proofs.«101625_j39247411151462_2_alg».proof.Proof.Gen.ReferenceIdeal.Run
import proofs.«101625_j39247411151462_2_alg».proof.Proof.Gen.ReferenceIdeal.Read
import proofs.«101625_j39247411151462_2_alg».proof.Proof.Chain
import proofs.«101625_j39247411151462_2_alg».proof.Proof.Bridge
import proofs.«101625_j39247411151462_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two runs end with equal result arrays: the kernel's function of the arguments on one side, the reference's
    last stage on the other, equal where the first three float arguments are arrays of reals. -/
theorem algebraic : Cert.algebraic_KernelIdeal_ReferenceIdeal := by
  intro m ρ m' ρ' hpre hagree
  refine ⟨fun c => Cert.KernelIdeal.Chain.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Chain.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v62_eq]
  obtain ⟨e0, e1, e2, e3, e4, e5, e6, e7⟩ := hagree c
  rw [e0, e1, e2, e3, e4, e5, e6, e7]
  obtain ⟨h0, h2, h3⟩ := Cert.Finite.real_of_pre _ _ _ _ _ _ _ _ (hpre c)
  exact Cert.Bridge.result_eq _ _ _ _ _ _ _ _ (Cert.Bridge.biased_real _ _ _ _ h0 h2 h3)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
